-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x16 : Shape := ⟨3, ![2, 256, 16]⟩
abbrev S2x128x16 : Shape := ⟨3, ![2, 128, 16]⟩
abbrev S48x16 : Shape := ⟨2, ![48, 16]⟩
abbrev S16 : Shape := ⟨1, ![16]⟩
abbrev S16x16 : Shape := ⟨2, ![16, 16]⟩
abbrev S_ : Shape := ⟨0, ![]⟩

class Facts : Prop where
  bcast_S_S2x256x16 : S_.BroadcastsInDim S2x256x16 (![] : Fin 0 → Fin S2x256x16.rank)
  reducesTo_S2x256x16_S_d0_1_2 : S2x256x16.ReducesTo [0, 1, 2] S_
  h_S_ : 0 < S_.numel
  bcast_S_S2x128x16 : S_.BroadcastsInDim S2x128x16 (![] : Fin 0 → Fin S2x128x16.rank)
  reducesTo_S2x128x16_S_d0_1_2 : S2x128x16.ReducesTo [0, 1, 2] S_
  bcast_S_S48x16 : S_.BroadcastsInDim S48x16 (![] : Fin 0 → Fin S48x16.rank)
  reducesTo_S48x16_S_d0_1 : S48x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16 .f32) (main_arg5 : FVec F S16x16 .f32) (main_arg6 : FVec F S16 .f32) (main_v13 : IVec S_ 1) (main_v16 : IVec S48x16 1) : IVec S_ 1 :=
  let main_c_5 : IVec S_ 1 := constantI S_ 1 1#1
  let main_v17 : IVec S_ 1 := (fun x v => Host.reduce IntOp.andi x v reducesTo_S48x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S2x256x16 .f32) (main_arg1 : FVec F S2x128x16 .f32) (main_arg2 : FVec F S2x128x16 .f32) (main_arg3 : FVec F S48x16 .f32) (main_arg4 : FVec F S16 .f32) (main_arg5 : FVec F S16x16 .f32) (main_arg6 : FVec F S16 .f32) : IVec S_ 1 :=
  let main_v0 : FVec F S2x256x16 .f32 := Host.absf main_arg0
  let main_cst : FVec F S_ .f32 := constant S_ .f32 0x7F800000#32
  let main_v1 : FVec F S2x256x16 .f32 := broadcastInDim S2x256x16 ![] bcast_S_S2x256x16 main_cst
  let main_v2 : IVec S2x256x16 1 := cmpf .olt main_v0 main_v1
  let main_c : IVec S_ 1 := constantI S_ 1 1#1
  let main_v3 : IVec S_ 1 := (fun x v => Host.reduce IntOp.andi x v reducesTo_S2x256x16_S_d0_1_2 h_S_) main_v2 main_c
  let main_v4 : FVec F S2x128x16 .f32 := Host.absf main_arg1
  let main_cst_0 : FVec F S_ .f32 := constant S_ .f32 0x7F800000#32
  let main_v5 : FVec F S2x128x16 .f32 := broadcastInDim S2x128x16 ![] bcast_S_S2x128x16 main_cst_0
  let main_v6 : IVec S2x128x16 1 := cmpf .olt main_v4 main_v5
  let main_c_1 : IVec S_ 1 := constantI S_ 1 1#1
  let main_v7 : IVec S_ 1 := (fun x v => Host.reduce IntOp.andi x v reducesTo_S2x128x16_S_d0_1_2 h_S_) main_v6 main_c_1
  let main_v8 : IVec S_ 1 := andi main_v3 main_v7
  let main_v9 : FVec F S2x128x16 .f32 := Host.absf main_arg2
  let main_cst_2 : FVec F S_ .f32 := constant S_ .f32 0x7F800000#32
  let main_v10 : FVec F S2x128x16 .f32 := broadcastInDim S2x128x16 ![] bcast_S_S2x128x16 main_cst_2
  let main_v11 : IVec S2x128x16 1 := cmpf .olt main_v9 main_v10
  let main_c_3 : IVec S_ 1 := constantI S_ 1 1#1
  let main_v12 : IVec S_ 1 := (fun x v => Host.reduce IntOp.andi x v reducesTo_S2x128x16_S_d0_1_2 h_S_) main_v11 main_c_3
  let main_v13 : IVec S_ 1 := andi main_v8 main_v12
  let main_v14 : FVec F S48x16 .f32 := Host.absf main_arg3
  let main_cst_4 : FVec F S_ .f32 := constant S_ .f32 0x7F800000#32
  let main_v15 : FVec F S48x16 .f32 := broadcastInDim S48x16 ![] bcast_S_S48x16 main_cst_4
  let main_v16 : IVec S48x16 1 := cmpf .olt main_v14 main_v15
  fn_part1 (F := F) main_arg4 main_arg5 main_arg6 main_v13 main_v16
-- ==== Kernel.lean ====
abbrev S2x256x16 : Shape := ⟨3, ![2, 256, 16]⟩
abbrev S2x128x16 : Shape := ⟨3, ![2, 128, 16]⟩
abbrev S48x16 : Shape := ⟨2, ![48, 16]⟩
abbrev S16 : Shape := ⟨1, ![16]⟩
abbrev S16x16 : Shape := ⟨2, ![16, 16]⟩
abbrev S1x8x16 : Shape := ⟨3, ![1, 8, 16]⟩
abbrev S1x128x16 : Shape := ⟨3, ![1, 128, 16]⟩
abbrev S8x16 : Shape := ⟨2, ![8, 16]⟩
abbrev S128x16 : Shape := ⟨2, ![128, 16]⟩
abbrev S8x1x16 : Shape := ⟨3, ![8, 1, 16]⟩
abbrev S8x128x16 : Shape := ⟨3, ![8, 128, 16]⟩
abbrev S1024x16 : Shape := ⟨2, ![1024, 16]⟩
abbrev S8x8x16 : Shape := ⟨3, ![8, 8, 16]⟩
abbrev S64x16 : Shape := ⟨2, ![64, 16]⟩
abbrev S8x1x1x16 : Shape := ⟨4, ![8, 1, 1, 16]⟩
abbrev S8x8x1x16 : Shape := ⟨4, ![8, 8, 1, 16]⟩
abbrev S8x1x128x16 : Shape := ⟨4, ![8, 1, 128, 16]⟩
abbrev S8x8x128x16 : Shape := ⟨4, ![8, 8, 128, 16]⟩
abbrev S1x1x1x16 : Shape := ⟨4, ![1, 1, 1, 16]⟩
abbrev S8192x16 : Shape := ⟨2, ![8192, 16]⟩
abbrev S1x16 : Shape := ⟨2, ![1, 16]⟩
abbrev S8x1024x16 : Shape := ⟨3, ![8, 1024, 16]⟩
abbrev S8x8 : Shape := ⟨2, ![8, 8]⟩

abbrev nBuf : Space → Nat
  | .hbm => 8
  | .vmem => 12
  | .smem => 0
  | _ => 0

abbrev bufTy : (tb : Table) → Fin (tcTables nBuf tb) → BufTy
  | .hbm, ⟨0, _⟩ => ⟨S2x256x16, .f32⟩
  | .hbm, ⟨1, _⟩ => ⟨S2x128x16, .f32⟩
  | .hbm, ⟨2, _⟩ => ⟨S2x128x16, .f32⟩
  | .hbm, ⟨3, _⟩ => ⟨S48x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S2x256x16, .f32⟩
  | .local _ .vmem, ⟨0, _⟩ => ⟨S1x8x16, .f32⟩
  | .local _ .vmem, ⟨1, _⟩ => ⟨S1x8x16, .f32⟩
  | .local _ .vmem, ⟨2, _⟩ => ⟨S1x128x16, .f32⟩
  | .local _ .vmem, ⟨3, _⟩ => ⟨S1x128x16, .f32⟩
  | .local _ .vmem, ⟨4, _⟩ => ⟨S1x128x16, .f32⟩
  | .local _ .vmem, ⟨5, _⟩ => ⟨S1x128x16, .f32⟩
  | .local _ .vmem, ⟨6, _⟩ => ⟨S48x16, .f32⟩
  | .local _ .vmem, ⟨7, _⟩ => ⟨S16, .f32⟩
  | .local _ .vmem, ⟨8, _⟩ => ⟨S16x16, .f32⟩
  | .local _ .vmem, ⟨9, _⟩ => ⟨S16, .f32⟩
  | .local _ .vmem, ⟨10, _⟩ => ⟨S1x8x16, .f32⟩
  | .local _ .vmem, ⟨11, _⟩ => ⟨S1x8x16, .f32⟩
  | _, _ => ⟨S2x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c16_i32 : BitVec 32 := 16#32
  let v27 : BitVec 32 := Scalar.addi c0_i32 c16_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v37 : BitVec 32 := Scalar.muli arg10 c8_i32
  v37
def k0_off1 (k0_t1 : Fin k0_t1_loop.trips) : Fin 3 → Nat :=
  let c0_21 : Index := 0#32
  let c0_i32 : BitVec 32 := 0#32
  let c1_i32 : BitVec 32 := 1#32
  let arg10 : BitVec 32 := Scf.iv c0_i32 c1_i32 k0_t1
  let c8_i32 : BitVec 32 := 8#32
  let v37 : BitVec 32 := Scalar.muli arg10 c8_i32
  let v38 : BitVec 32 := v37
  let v39 : Index := Scalar.indexCast v38
  let c0_22 : Index := 0#32
  ![0, v39.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S48x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S48x16_S16x16_0_0 : ∀ a, (![0, 0] : Fin 2 → Nat) a + S16x16.size a ≤ S48x16.size a
  h_S16x16 : 0 < S16x16.numel
  bitsLt_bf16_f32 : FTy.bits .bf16 < FTy.bits .f32
  inb_S48x16_S16x16_16_0 : ∀ a, (![16, 0] : Fin 2 → Nat) a + S16x16.size a ≤ S48x16.size a
  inb_S48x16_S16x16_32_0 : ∀ a, (![32, 0] : Fin 2 → Nat) a + S16x16.size a ≤ S48x16.size a
  inb_S16x16_S16x16_0_0 : ∀ a, (![0, 0] : Fin 2 → Nat) a + S16x16.size a ≤ S16x16.size a
  inb_S16_S16_0 : ∀ a, (![0] : Fin 1 → Nat) a + S16.size a ≤ S16.size a
  h_S16 : 0 < S16.numel
  shapeCasts_S128x16_S1x128x16 : S128x16.ShapeCasts S1x128x16
  shapeCasts_S8x16_S8x1x16 : S8x16.ShapeCasts S8x1x16
  broadcasts_S1x128x16_S8x128x16 : S1x128x16.Broadcasts S8x128x16
  broadcasts_S8x1x16_S8x128x16 : S8x1x16.Broadcasts S8x128x16
  shapeCasts_S8x128x16_S1024x16 : S8x128x16.ShapeCasts S1024x16
  shapeCasts_S1024x16_S8x128x16 : S1024x16.ShapeCasts S8x128x16
  shapeCasts_S8x16_S1x8x16 : S8x16.ShapeCasts S1x8x16
  broadcasts_S1x8x16_S8x8x16 : S1x8x16.Broadcasts S8x8x16
  broadcasts_S8x1x16_S8x8x16 : S8x1x16.Broadcasts S8x8x16
  shapeCasts_S8x8x16_S64x16 : S8x8x16.ShapeCasts S64x16
  shapeCasts_S64x16_S8x8x16 : S64x16.ShapeCasts S8x8x16
  shapeCasts_S8x16_S8x1x1x16 : S8x16.ShapeCasts S8x1x1x16
  shapeCasts_S8x8x16_S8x8x1x16 : S8x8x16.ShapeCasts S8x8x1x16
  broadcasts_S8x1x1x16_S8x8x1x16 : S8x1x1x16.Broadcasts S8x8x1x16
  shapeCasts_S8x128x16_S8x1x128x16 : S8x128x16.ShapeCasts S8x1x128x16
  broadcasts_S8x8x1x16_S8x8x128x16 : S8x8x1x16.Broadcasts S8x8x128x16
  broadcasts_S8x1x128x16_S8x8x128x16 : S8x1x128x16.Broadcasts S8x8x128x16
  shapeCasts_S16_S1x1x1x16 : S16.ShapeCasts S1x1x1x16
  broadcasts_S1x1x1x16_S8x8x128x16 : S1x1x1x16.Broadcasts S8x8x128x16
  shapeCasts_S8x8x128x16_S8192x16 : S8x8x128x16.ShapeCasts S8192x16
  shapeCasts_S16_S1x16 : S16.ShapeCasts S1x16
  broadcasts_S1x16_S8192x16 : S1x16.Broadcasts S8192x16
  shapeCasts_S8192x16_S8x1024x16 : S8192x16.ShapeCasts S8x1024x16
  reduces_S8x1024x16_S8x16 : S8x1024x16.Reduces [1] S8x16
  slices_S8x16_o0_0_S8x8 : S8x16.Slices ![0, 0] S8x8
  slices_S8x16_o0_8_S8x8 : S8x16.Slices ![0, 8] S8x8
  concatenates_S8x8_S8x8_S8x16_d1 : Shape.Concatenates [S8x8, S8x8] S8x16 1
  dot_S8x16_S16x16_S8x16_1_0_0_1_n_n_wf : DotDims.WF S8x16 S16x16 S8x16 [1] [0] [0] [1] [] []
  dot_S1024x16_S16x16_S1024x16_1_0_0_1_n_n_wf : DotDims.WF S1024x16 S16x16 S1024x16 [1] [0] [0] [1] [] []
  dot_S64x16_S16x16_S64x16_1_0_0_1_n_n_wf : DotDims.WF S64x16 S16x16 S64x16 [1] [0] [0] [1] [] []
  dot_S8192x16_S16x16_S8192x16_1_0_0_1_n_n_wf : DotDims.WF S8192x16 S16x16 S8192x16 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x16.size a ≤ S1x128x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16.size a ≤ S2x256x16.size a
  hwx0_0 : ∀ i : grid0.Coords, EltTy.bits .f32 = 32 ∨ (Rect.block (s := S2x256x16) S1x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16.size a ≤ S2x128x16.size a
  hwx0_1 : ∀ i : grid0.Coords, EltTy.bits .f32 = 32 ∨ (Rect.block (s := S2x128x16) S1x128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x16.size a ≤ S2x128x16.size a
  hwx0_2 : ∀ i : grid0.Coords, EltTy.bits .f32 = 32 ∨ (Rect.block (s := S2x128x16) S1x128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x16.size a ≤ S48x16.size a
  hwx0_3 : ∀ i : grid0.Coords, EltTy.bits .f32 = 32 ∨ (Rect.block (s := S48x16) S48x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x16.size a ≤ S2x256x16.size a
  hwx0_7 : ∀ i : grid0.Coords, EltTy.bits .f32 = 32 ∨ (Rect.block (s := S2x256x16) S1x8x16.size (cc0_transform_7 i) (hinb0_7 i)).WholeWords (EltTy.packing .f32)

variable [Facts₀]

def dot_S8x16_S16x16_S8x16_1_0_0_1_n_n : DotDims S8x16 S16x16 S8x16 where
  lhsContracting := [1]
  rhsContracting := [0]
  lhsNonContracting := [0]
  rhsNonContracting := [1]
  lhsBatch := []
  rhsBatch := []
  wf := dot_S8x16_S16x16_S8x16_1_0_0_1_n_n_wf
def dot_S1024x16_S16x16_S1024x16_1_0_0_1_n_n : DotDims S1024x16 S16x16 S1024x16 where
  lhsContracting := [1]
  rhsContracting := [0]
  lhsNonContracting := [0]
  rhsNonContracting := [1]
  lhsBatch := []
  rhsBatch := []
  wf := dot_S1024x16_S16x16_S1024x16_1_0_0_1_n_n_wf
def dot_S64x16_S16x16_S64x16_1_0_0_1_n_n : DotDims S64x16 S16x16 S64x16 where
  lhsContracting := [1]
  rhsContracting := [0]
  lhsNonContracting := [0]
  rhsNonContracting := [1]
  lhsBatch := []
  rhsBatch := []
  wf := dot_S64x16_S16x16_S64x16_1_0_0_1_n_n_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf

abbrev win0_0 : Pipeline.Window sig grid0 :=
  Pipeline.Window.ofSpec (Memref.whole main_arg0) S1x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S48x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x8x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x256x16 : Shape := ⟨3, ![2, 256, 16]⟩
abbrev S2x128x16 : Shape := ⟨3, ![2, 128, 16]⟩
abbrev S48x16 : Shape := ⟨2, ![48, 16]⟩
abbrev S16 : Shape := ⟨1, ![16]⟩
abbrev S16x16 : Shape := ⟨2, ![16, 16]⟩
abbrev S2x1x128x16 : Shape := ⟨4, ![2, 1, 128, 16]⟩
abbrev S2x256x1x16 : Shape := ⟨4, ![2, 256, 1, 16]⟩
abbrev S2x256x128x16 : Shape := ⟨4, ![2, 256, 128, 16]⟩
abbrev S2x256x1x1x16 : Shape := ⟨5, ![2, 256, 1, 1, 16]⟩
abbrev S2x256x128x1x16 : Shape := ⟨5, ![2, 256, 128, 1, 16]⟩
abbrev S2x256x1x128x16 : Shape := ⟨5, ![2, 256, 1, 128, 16]⟩
abbrev S2x256x128x128x16 : Shape := ⟨5, ![2, 256, 128, 128, 16]⟩
abbrev S1x1x1x1x16 : Shape := ⟨5, ![1, 1, 1, 1, 16]⟩
abbrev S_ : Shape := ⟨0, ![]⟩
abbrev S2x256x128x128x8 : Shape := ⟨5, ![2, 256, 128, 128, 8]⟩
abbrev S2x256x8 : Shape := ⟨3, ![2, 256, 8]⟩

abbrev nBuf : Space → Nat
  | .hbm => 54
  | .vmem => 0
  | .smem => 0
  | _ => 0

abbrev bufTy : (tb : Table) → Fin (tcTables nBuf tb) → BufTy
  | .hbm, ⟨0, _⟩ => ⟨S2x256x16, .f32⟩
  | .hbm, ⟨1, _⟩ => ⟨S2x128x16, .f32⟩
  | .hbm, ⟨2, _⟩ => ⟨S2x128x16, .f32⟩
  | .hbm, ⟨3, _⟩ => ⟨S48x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S2x256x16, .f32⟩
  | .hbm, ⟨11, _⟩ => ⟨S2x1x128x16, .f32⟩
  | .hbm, ⟨12, _⟩ => ⟨S2x256x1x16, .f32⟩
  | .hbm, ⟨13, _⟩ => ⟨S2x256x128x16, .f32⟩
  | .hbm, ⟨14, _⟩ => ⟨S2x256x128x16, .f32⟩
  | .hbm, ⟨15, _⟩ => ⟨S2x256x128x16, .f32⟩
  | .hbm, ⟨16, _⟩ => ⟨S2x1x128x16, .f32⟩
  | .hbm, ⟨17, _⟩ => ⟨S2x256x1x16, .f32⟩
  | .hbm, ⟨18, _⟩ => ⟨S2x256x128x16, .f32⟩
  | .hbm, ⟨19, _⟩ => ⟨S2x256x128x16, .f32⟩
  | .hbm, ⟨20, _⟩ => ⟨S2x256x128x16, .f32⟩
  | .hbm, ⟨21, _⟩ => ⟨S2x256x128x16, .f32⟩
  | .hbm, ⟨22, _⟩ => ⟨S2x256x128x16, .f32⟩
  | .hbm, ⟨23, _⟩ => ⟨S2x256x1x1x16, .f32⟩
  | .hbm, ⟨24, _⟩ => ⟨S2x256x128x1x16, .f32⟩
  | .hbm, ⟨25, _⟩ => ⟨S2x256x128x1x16, .f32⟩
  | .hbm, ⟨26, _⟩ => ⟨S2x256x128x1x16, .f32⟩
  | .hbm, ⟨27, _⟩ => ⟨S2x256x1x128x16, .f32⟩
  | .hbm, ⟨28, _⟩ => ⟨S2x256x128x128x16, .f32⟩
  | .hbm, ⟨29, _⟩ => ⟨S2x256x128x128x16, .f32⟩
  | .hbm, ⟨30, _⟩ => ⟨S2x256x128x128x16, .f32⟩
  | .hbm, ⟨31, _⟩ => ⟨S1x1x1x1x16, .f32⟩
  | .hbm, ⟨32, _⟩ => ⟨S2x256x128x128x16, .f32⟩
  | .hbm, ⟨33, _⟩ => ⟨S2x256x128x128x16, .f32⟩
  | .hbm, ⟨34, _⟩ => ⟨S_, .f32⟩
  | .hbm, ⟨35, _⟩ => ⟨S2x256x128x128x16, .f32⟩
  | .hbm, ⟨36, _⟩ => ⟨S2x256x128x128x16, .f32⟩
  | .hbm, ⟨37, _⟩ => ⟨S2x256x128x128x16, .f32⟩
  | .hbm, ⟨38, _⟩ => ⟨S1x1x1x1x16, .f32⟩
  | .hbm, ⟨39, _⟩ => ⟨S2x256x128x128x16, .f32⟩
  | .hbm, ⟨40, _⟩ => ⟨S2x256x128x128x16, .f32⟩
  | .hbm, ⟨41, _⟩ => ⟨S_, .f32⟩
  | .hbm, ⟨42, _⟩ => ⟨S2x256x128x128x16, .f32⟩
  | .hbm, ⟨43, _⟩ => ⟨S2x256x128x128x16, .f32⟩
  | .hbm, ⟨44, _⟩ => ⟨S2x256x128x128x8, .f32⟩
  | .hbm, ⟨45, _⟩ => ⟨S_, .f32⟩
  | .hbm, ⟨46, _⟩ => ⟨S2x256x8, .f32⟩
  | .hbm, ⟨47, _⟩ => ⟨S2x256x128x128x8, .f32⟩
  | .hbm, ⟨48, _⟩ => ⟨S_, .f32⟩
  | .hbm, ⟨49, _⟩ => ⟨S2x256x8, .f32⟩
  | .hbm, ⟨50, _⟩ => ⟨S_, .f32⟩
  | .hbm, ⟨51, _⟩ => ⟨S2x256x8, .f32⟩
  | .hbm, ⟨52, _⟩ => ⟨S2x256x8, .f32⟩
  | .hbm, ⟨53, _⟩ => ⟨S2x256x16, .f32⟩
  | _, _ => ⟨S2x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_cst : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call1_cst : Ref sig .tc := ⟨.hbm, 41, rfl⟩
abbrev main_call1_v0 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S48x16_S16x16_0_0 : S48x16.Slices ![0, 0] S16x16
  slices_S48x16_S16x16_16_0 : S48x16.Slices ![16, 0] S16x16
  slices_S48x16_S16x16_32_0 : S48x16.Slices ![32, 0] S16x16
  bcast_S2x128x16_S2x1x128x16_0_2_3 : S2x128x16.BroadcastsInDim S2x1x128x16 (![0, 2, 3] : Fin 3 → Fin S2x1x128x16.rank)
  bcast_S2x256x16_S2x256x1x16_0_1_3 : S2x256x16.BroadcastsInDim S2x256x1x16 (![0, 1, 3] : Fin 3 → Fin S2x256x1x16.rank)
  bcast_S2x1x128x16_S2x256x128x16_0_1_2_3 : S2x1x128x16.BroadcastsInDim S2x256x128x16 (![0, 1, 2, 3] : Fin 4 → Fin S2x256x128x16.rank)
  bcast_S2x256x1x16_S2x256x128x16_0_1_2_3 : S2x256x1x16.BroadcastsInDim S2x256x128x16 (![0, 1, 2, 3] : Fin 4 → Fin S2x256x128x16.rank)
  bcast_S2x256x16_S2x256x1x1x16_0_1_4 : S2x256x16.BroadcastsInDim S2x256x1x1x16 (![0, 1, 4] : Fin 3 → Fin S2x256x1x1x16.rank)
  bcast_S2x256x128x16_S2x256x128x1x16_0_1_2_4 : S2x256x128x16.BroadcastsInDim S2x256x128x1x16 (![0, 1, 2, 4] : Fin 4 → Fin S2x256x128x1x16.rank)
  bcast_S2x256x1x1x16_S2x256x128x1x16_0_1_2_3_4 : S2x256x1x1x16.BroadcastsInDim S2x256x128x1x16 (![0, 1, 2, 3, 4] : Fin 5 → Fin S2x256x128x1x16.rank)
  bcast_S2x256x128x16_S2x256x1x128x16_0_1_3_4 : S2x256x128x16.BroadcastsInDim S2x256x1x128x16 (![0, 1, 3, 4] : Fin 4 → Fin S2x256x1x128x16.rank)
  bcast_S2x256x128x1x16_S2x256x128x128x16_0_1_2_3_4 : S2x256x128x1x16.BroadcastsInDim S2x256x128x128x16 (![0, 1, 2, 3, 4] : Fin 5 → Fin S2x256x128x128x16.rank)
  bcast_S2x256x1x128x16_S2x256x128x128x16_0_1_2_3_4 : S2x256x1x128x16.BroadcastsInDim S2x256x128x128x16 (![0, 1, 2, 3, 4] : Fin 5 → Fin S2x256x128x128x16.rank)
  bcast_S16_S1x1x1x1x16_4 : S16.BroadcastsInDim S1x1x1x1x16 (![4] : Fin 1 → Fin S1x1x1x1x16.rank)
  bcast_S1x1x1x1x16_S2x256x128x128x16_0_1_2_3_4 : S1x1x1x1x16.BroadcastsInDim S2x256x128x128x16 (![0, 1, 2, 3, 4] : Fin 5 → Fin S2x256x128x128x16.rank)
  bcast_S_S2x256x128x128x16 : S_.BroadcastsInDim S2x256x128x128x16 (![] : Fin 0 → Fin S2x256x128x128x16.rank)
  slices_S2x256x128x128x16_S2x256x128x128x8_0_0_0_0_0 : S2x256x128x128x16.Slices ![0, 0, 0, 0, 0] S2x256x128x128x8
  reducesTo_S2x256x128x128x8_S2x256x8_d2_3 : S2x256x128x128x8.ReducesTo [2, 3] S2x256x8
  h_S_ : 0 < S_.numel
  slices_S2x256x128x128x16_S2x256x128x128x8_0_0_0_0_8 : S2x256x128x128x16.Slices ![0, 0, 0, 0, 8] S2x256x128x128x8
  bcast_S_S2x256x8 : S_.BroadcastsInDim S2x256x8 (![] : Fin 0 → Fin S2x256x8.rank)
  concatenates_S2x256x8_S2x256x8_S2x256x16_d2 : Shape.Concatenates [S2x256x8, S2x256x8] S2x256x16 2
  dot_S2x256x16_S16x16_S2x256x16_2_0_01_1_n_n_wf : DotDims.WF S2x256x16 S16x16 S2x256x16 [2] [0] [0, 1] [1] [] []
  dot_S2x256x128x16_S16x16_S2x256x128x16_3_0_012_1_n_n_wf : DotDims.WF S2x256x128x16 S16x16 S2x256x128x16 [3] [0] [0, 1, 2] [1] [] []
  dot_S2x256x128x128x16_S16x16_S2x256x128x128x16_4_0_0123_1_n_n_wf : DotDims.WF S2x256x128x128x16 S16x16 S2x256x128x128x16 [4] [0] [0, 1, 2, 3] [1] [] []

variable [Facts₀]

def dot_S2x256x16_S16x16_S2x256x16_2_0_01_1_n_n : DotDims S2x256x16 S16x16 S2x256x16 where
  lhsContracting := [2]
  rhsContracting := [0]
  lhsNonContracting := [0, 1]
  rhsNonContracting := [1]
  lhsBatch := []
  rhsBatch := []
  wf := dot_S2x256x16_S16x16_S2x256x16_2_0_01_1_n_n_wf
def dot_S2x256x128x16_S16x16_S2x256x128x16_3_0_012_1_n_n : DotDims S2x256x128x16 S16x16 S2x256x128x16 where
  lhsContracting := [3]
  rhsContracting := [0]
  lhsNonContracting := [0, 1, 2]
  rhsNonContracting := [1]
  lhsBatch := []
  rhsBatch := []
  wf := dot_S2x256x128x16_S16x16_S2x256x128x16_3_0_012_1_n_n_wf
def dot_S2x256x128x128x16_S16x16_S2x256x128x128x16_4_0_0123_1_n_n : DotDims S2x256x128x128x16 S16x16 S2x256x128x128x16 where
  lhsContracting := [4]
  rhsContracting := [0]
  lhsNonContracting := [0, 1, 2, 3]
  rhsNonContracting := [1]
  lhsBatch := []
  rhsBatch := []
  wf := dot_S2x256x128x128x16_S16x16_S2x256x128x128x16_4_0_0123_1_n_n_wf

class Facts : Prop extends Facts₀ where

variable [Facts]
-- ==== Proof.Spec.lean ====
/-
  What both programs compute, as one function of the argument arrays.

  For a batch `b`, a point `n` of x and a pair (`j`, `k`) of points of x1 and x2, the pair's feature vector is the
  concatenation [x_n, x1_j − x_n, x2_k − x_n] (48 channels). A first affine layer W1, b1 with a relu gives 16 hidden
  channels; because the layer is linear in the concatenation it is the sum of three products, one per 16-row block of
  W1: rows 0–15 meet x_n, rows 16–31 meet x1_j − x_n, rows 32–47 meet x2_k − x_n. A second affine layer W2, b2 with a
  relu gives the pair's 16 output channels. The result at (b, n, q) pools over all 128 · 128 pairs: the maximum for the
  channels q < 8, the mean (the sum times 1/16384) for the channels q ≥ 8.

  Every sum is a finite sum in the extended reals, where addition is commutative and associative, and the maximum is
  a supremum in a complete linear order: neither depends on the order or the grouping of its terms.
-/
import Idealize.ShloMosaic.PureOps.Ideal
import Idealize.ShloMosaic.Lib.ValueIdx

noncomputable section

namespace Cert.PairPool

open Idealize.ShloMosaic Idealize.ShloMosaic.ValueIdx

/-- Arrays of extended reals over literal shapes of rank 3, 2 and 1. -/
abbrev Arr3 (a b c : ℕ) := (⟨3, ![a, b, c]⟩ : Shape).Idx → EReal
abbrev Arr2 (a b : ℕ) := (⟨2, ![a, b]⟩ : Shape).Idx → EReal
abbrev Arr1 (a : ℕ) := (⟨1, ![a]⟩ : Shape).Idx → EReal

/-- The three 16-row blocks of the first layer's 48 × 16 matrix: row `c` of each. -/
def rowA (c : Fin 16) : Fin 48 := ⟨c.val, by have := c.isLt; omega⟩
def rowB (c : Fin 16) : Fin 48 := ⟨16 + c.val, by have := c.isLt; omega⟩
def rowC (c : Fin 16) : Fin 48 := ⟨32 + c.val, by have := c.isLt; omega⟩

/-- The zero both relus compare with, as the word both programs spell. -/
abbrev zeroWord : EReal := Ideal.ofBits .f32 0x00000000#32

/-- One pair's output channel `q` from the three 16-vectors it is made of — `xr` the point of x, `x1r` and `x2r` the
    points of x1 and x2 — and the weights: `Wa`, `Wb`, `Wc` the three 16 × 16 blocks of the first layer's matrix, `b1` its
    bias, `W2`, `b2` the second layer. Both layers end in a relu. -/
def pairFeature (xr x1r x2r : Fin 16 → EReal) (Wa Wb Wc W2 : Fin 16 → Fin 16 → EReal) (b1 b2 : Fin 16 → EReal)
    (q : Fin 16) : EReal :=
  max ((∑ o : Fin 16,
          max ((((∑ c : Fin 16, xr c * Wa c o) + ∑ c : Fin 16, (x1r c - xr c) * Wb c o)
                + ∑ c : Fin 16, (x2r c - xr c) * Wc c o) + b1 o) zeroWord * W2 o q) + b2 q) zeroWord

variable (X : Arr3 2 256 16) (X1 X2 : Arr3 2 128 16) (W1 : Arr2 48 16) (B1 : Arr1 16) (W2 : Arr2 16 16) (B2 : Arr1 16)

/-- The pair (j, k)'s output channel q at point n of batch b, from the argument arrays. -/
def feature (b : Fin 2) (n : Fin 256) (j k : Fin 128) (q : Fin 16) : EReal :=
  pairFeature (fun c => X (ix3 b n c)) (fun c => X1 (ix3 b j c)) (fun c => X2 (ix3 b k c))
    (fun c o => W1 (ix2 (rowA c) o)) (fun c o => W1 (ix2 (rowB c) o)) (fun c o => W1 (ix2 (rowC c) o))
    (fun o p => W2 (ix2 o p)) (fun o => B1 (ix1 o)) (fun p => B2 (ix1 p)) q

/-- The largest feature over all pairs. -/
def pooledMax (b : Fin 2) (n : Fin 256) (q : Fin 16) : EReal :=
  Finset.univ.sup fun jk : Fin 128 × Fin 128 => feature X X1 X2 W1 B1 W2 B2 b n jk.1 jk.2 q

/-- The sum of the features over all pairs. -/
def pooledSum (b : Fin 2) (n : Fin 256) (q : Fin 16) : EReal :=
  ∑ jk : Fin 128 × Fin 128, feature X X1 X2 W1 B1 W2 B2 b n jk.1 jk.2 q

/-- The result array: channels 0–7 the maximum over the pairs, channels 8–15 their mean. -/
def pooled : Arr3 2 256 16 := fun i =>
  if (i 2).val < 8 then pooledMax X X1 X2 W1 B1 W2 B2 (i 0) (i 1) (i 2)
  else pooledSum X X1 X2 W1 B1 W2 B2 (i 0) (i 1) (i 2) * Ideal.ofBits .f32 0x38800000#32

end Cert.PairPool

end
-- ==== Proof.Consts.lean ====
/-
  The float words the two programs spell, as the extended reals they denote. The kernel multiplies the sum of the
  128 · 128 pooled features by the word of 2⁻¹⁴; the reference divides that sum by the word of 16384 = 2¹⁴. Both words
  are exact binary values, so on every extended real the quotient is the product. The running maximum starts from the
  word of −∞, the least extended real, and every sum from the word of 0.
-/
import Idealize.ShloMosaic.PureOps.Ideal
import Idealize.ShloMosaic.PureOps.Ideal.Laws

noncomputable section

namespace Cert.PairPool.Consts

open Idealize.ShloMosaic

/-- The reference's divisor `16384.0` denotes the real 16384. -/
theorem ofBits_16384 : Ideal.ofBits .f32 0x46800000#32 = ((16384 : ℝ) : EReal) := by
  simp [Ideal.ofBits, Ideal.ieee, -EReal.coe_mul]; norm_num

/-- The kernel's factor `6.10351563E-5` denotes the real 1/16384 exactly. -/
theorem ofBits_inv16384 : Ideal.ofBits .f32 0x38800000#32 = ((1 / 16384 : ℝ) : EReal) := by
  simp [Ideal.ofBits, Ideal.ieee, -EReal.coe_mul]; norm_num

/-- The word of −∞ denotes the least extended real. -/
theorem ofBits_negInf : Ideal.ofBits .f32 0xFF800000#32 = (⊥ : EReal) := by
  simp [Ideal.ofBits, Ideal.ieee]

/-- Dividing by 16384 is multiplying by 1/16384, on every extended real. -/
theorem div_16384 (x : EReal) :
    Ideal.div x (Ideal.ofBits .f32 0x46800000#32) = x * Ideal.ofBits .f32 0x38800000#32 := by
  rw [ofBits_16384, ofBits_inv16384]
  exact Ideal.div_coe (by norm_num) x

end Cert.PairPool.Consts

end
-- ==== Proof.RefIsSpec.lean ====
/-
  The reference program's result is the specification.

  The reference builds, for every batch b, point n of x and pair (j, k) of points of x1 and x2, the 16 output channels of
  the pair's two-layer perceptron: the first layer's product with the concatenation [x_n, x1_j − x_n, x2_k − x_n] is
  computed block by block (three 16 × 16 products, broadcast over the missing pair coordinate and added), the bias is
  added, a relu follows, then the second layer with its bias and relu. That is the specification's `feature`, read one
  operation at a time at an index given by its coordinates.

  The two pooling reductions run over the set of tensor indices whose coordinates (0, 1, 4) are a given (b, n, q). That
  set is the image of the pairs (j, k) under (j, k) ↦ (b, n, j, k, q), an injective map, so the running maximum from −∞
  is the supremum over the pairs and the sum from 0 is the sum over the pairs. The mean divides by 16384, which is
  multiplying by 2⁻¹⁴. The concatenation puts the maxima on channels 0–7 and the means on channels 8–15.
-/
import proofs.«171986_j43078521979326_2_alg».proof.Proof.Spec
import proofs.«171986_j43078521979326_2_alg».proof.Proof.Consts
import proofs.«171986_j43078521979326_2_alg».proof.Proof.RefReadP
import Idealize.ShloMosaic.Lib.ValueIdx
import Idealize.ShloMosaic.Lib.Pipeline.Value
import Idealize.ShloMosaic.PureOps.Reduce
import Idealize.ShloMosaic.PureOps.Ideal.Laws

noncomputable section

namespace Cert.PairPool.Ref

open Cert.ReferenceIdeal Cert.ReferenceIdeal.Gen Cert.ReferenceIdeal.ReadP Idealize.ShloMosaic Idealize.ShloMosaic.ValueIdx

variable (x0 : (⟨S2x256x16, .f32⟩ : BufTy).Contents (Elt Ideal)) (x1 x2 : (⟨S2x128x16, .f32⟩ : BufTy).Contents (Elt Ideal))
  (x3 : (⟨S48x16, .f32⟩ : BufTy).Contents (Elt Ideal)) (x4 : (⟨S16, .f32⟩ : BufTy).Contents (Elt Ideal))
  (x5 : (⟨S16x16, .f32⟩ : BufTy).Contents (Elt Ideal)) (x6 : (⟨S16, .f32⟩ : BufTy).Contents (Elt Ideal))

/-! ## The pair's feature, one operation at a time -/

/-- The first 16-row block of the first layer's matrix. -/
theorem blockA_at (c o : Fin 16) : val_main_v0 (F := Ideal) x3 (ix2 c o) = x3 (ix2 (rowA c) o) :=
  (val_main_v0_apply x3 (ix2 c o)).trans (congrArg x3 (funext fun a => Fin.ext (by
    match a with | ⟨0, _⟩ => rfl | ⟨1, _⟩ => rfl)))

/-- The second 16-row block. -/
theorem blockB_at (c o : Fin 16) : val_main_v1 (F := Ideal) x3 (ix2 c o) = x3 (ix2 (rowB c) o) :=
  (val_main_v1_apply x3 (ix2 c o)).trans (congrArg x3 (funext fun a => Fin.ext (by
    match a with | ⟨0, _⟩ => rfl | ⟨1, _⟩ => rfl)))

/-- The third 16-row block. -/
theorem blockC_at (c o : Fin 16) : val_main_v2 (F := Ideal) x3 (ix2 c o) = x3 (ix2 (rowC c) o) :=
  (val_main_v2_apply x3 (ix2 c o)).trans (congrArg x3 (funext fun a => Fin.ext (by
    match a with | ⟨0, _⟩ => rfl | ⟨1, _⟩ => rfl)))

/-- The point's own term: x_n times the first block. -/
theorem selfTerm_at (b : Fin 2) (n : Fin 256) (o : Fin 16) :
    val_main_v3 (F := Ideal) x0 x3 (ix3 b n o) = ∑ c : Fin 16, x0 (ix3 b n c) * x3 (ix2 (rowA c) o) := by
  rw [val_main_v3_apply]
  refine Finset.sum_congr rfl fun c _ => ?_
  have el : lidx_main_v3 (ix3 b n o) c = ix3 b n c := funext fun a => Fin.ext (by
    match a with | ⟨0, _⟩ => rfl | ⟨1, _⟩ => rfl | ⟨2, _⟩ => rfl)
  have er : ridx_main_v3 (ix3 b n o) c = ix2 c o := funext fun a => Fin.ext (by
    match a with | ⟨0, _⟩ => rfl | ⟨1, _⟩ => rfl)
  rw [el, er, blockA_at]

/-- The first difference x1_j − x_n. -/
theorem diff1_at (b : Fin 2) (n : Fin 256) (j : Fin 128) (c : Fin 16) :
    val_main_v8 (F := Ideal) x0 x1 (ix4 b n j c) = x1 (ix3 b j c) - x0 (ix3 b n c) := by
  rw [val_main_v8_apply, val_main_v6_apply, val_main_v4_apply, val_main_v7_apply, val_main_v5_apply]
  have e1 : idx_main_v4 (idx_main_v6 (ix4 b n j c)) = ix3 b j c := funext fun a => Fin.ext (by
    match a with | ⟨0, _⟩ => rfl | ⟨1, _⟩ => rfl | ⟨2, _⟩ => rfl)
  have e2 : idx_main_v5 (idx_main_v7 (ix4 b n j c)) = ix3 b n c := funext fun a => Fin.ext (by
    match a with | ⟨0, _⟩ => rfl | ⟨1, _⟩ => rfl | ⟨2, _⟩ => rfl)
  rw [e1, e2]
  rfl

/-- The second difference x2_k − x_n. -/
theorem diff2_at (b : Fin 2) (n : Fin 256) (k : Fin 128) (c : Fin 16) :
    val_main_v13 (F := Ideal) x0 x2 (ix4 b n k c) = x2 (ix3 b k c) - x0 (ix3 b n c) := by
  rw [val_main_v13_apply, val_main_v11_apply, val_main_v9_apply, val_main_v12_apply, val_main_v10_apply]
  have e1 : idx_main_v9 (idx_main_v11 (ix4 b n k c)) = ix3 b k c := funext fun a => Fin.ext (by
    match a with | ⟨0, _⟩ => rfl | ⟨1, _⟩ => rfl | ⟨2, _⟩ => rfl)
  have e2 : idx_main_v10 (idx_main_v12 (ix4 b n k c)) = ix3 b n c := funext fun a => Fin.ext (by
    match a with | ⟨0, _⟩ => rfl | ⟨1, _⟩ => rfl | ⟨2, _⟩ => rfl)
  rw [e1, e2]
  rfl

/-- The first difference times the second block. -/
theorem firstTerm_at (b : Fin 2) (n : Fin 256) (j : Fin 128) (o : Fin 16) :
    val_main_v14 (F := Ideal) x0 x1 x3 (ix4 b n j o)
      = ∑ c : Fin 16, (x1 (ix3 b j c) - x0 (ix3 b n c)) * x3 (ix2 (rowB c) o) := by
  rw [val_main_v14_apply]
  refine Finset.sum_congr rfl fun c _ => ?_
  have el : lidx_main_v14 (ix4 b n j o) c = ix4 b n j c := funext fun a => Fin.ext (by
    match a with | ⟨0, _⟩ => rfl | ⟨1, _⟩ => rfl | ⟨2, _⟩ => rfl | ⟨3, _⟩ => rfl)
  have er : ridx_main_v14 (ix4 b n j o) c = ix2 c o := funext fun a => Fin.ext (by
    match a with | ⟨0, _⟩ => rfl | ⟨1, _⟩ => rfl)
  rw [el, er, diff1_at, blockB_at]

/-- The second difference times the third block. -/
theorem secondTerm_at (b : Fin 2) (n : Fin 256) (k : Fin 128) (o : Fin 16) :
    val_main_v15 (F := Ideal) x0 x2 x3 (ix4 b n k o)
      = ∑ c : Fin 16, (x2 (ix3 b k c) - x0 (ix3 b n c)) * x3 (ix2 (rowC c) o) := by
  rw [val_main_v15_apply]
  refine Finset.sum_congr rfl fun c _ => ?_
  have el : lidx_main_v15 (ix4 b n k o) c = ix4 b n k c := funext fun a => Fin.ext (by
    match a with | ⟨0, _⟩ => rfl | ⟨1, _⟩ => rfl | ⟨2, _⟩ => rfl | ⟨3, _⟩ => rfl)
  have er : ridx_main_v15 (ix4 b n k o) c = ix2 c o := funext fun a => Fin.ext (by
    match a with | ⟨0, _⟩ => rfl | ⟨1, _⟩ => rfl)
  rw [el, er, diff2_at, blockC_at]

/-- The first layer before its relu: the three terms, in the order the program adds them, and the bias. -/
theorem hiddenPre_at (b : Fin 2) (n : Fin 256) (j k : Fin 128) (o : Fin 16) :
    val_main_v26 (F := Ideal) x0 x1 x2 x3 x4 (ix5 b n j k o)
      = (((∑ c : Fin 16, x0 (ix3 b n c) * x3 (ix2 (rowA c) o))
            + ∑ c : Fin 16, (x1 (ix3 b j c) - x0 (ix3 b n c)) * x3 (ix2 (rowB c) o))
          + ∑ c : Fin 16, (x2 (ix3 b k c) - x0 (ix3 b n c)) * x3 (ix2 (rowC c) o)) + x4 (ix1 o) := by
  rw [val_main_v26_apply, val_main_v23_apply, val_main_v21_apply, val_main_v19_apply, val_main_v18_apply,
    val_main_v16_apply, val_main_v17_apply, val_main_v22_apply, val_main_v20_apply, val_main_v25_apply,
    val_main_v24_apply]
  have e3 : idx_main_v16 (idx_main_v18 (idx_main_v21 (ix5 b n j k o))) = ix3 b n o := funext fun a => Fin.ext (by
    match a with | ⟨0, _⟩ => rfl | ⟨1, _⟩ => rfl | ⟨2, _⟩ => rfl)
  have e14 : idx_main_v17 (idx_main_v21 (ix5 b n j k o)) = ix4 b n j o := funext fun a => Fin.ext (by
    match a with | ⟨0, _⟩ => rfl | ⟨1, _⟩ => rfl | ⟨2, _⟩ => rfl | ⟨3, _⟩ => rfl)
  have e15 : idx_main_v20 (idx_main_v22 (ix5 b n j k o)) = ix4 b n k o := funext fun a => Fin.ext (by
    match a with | ⟨0, _⟩ => rfl | ⟨1, _⟩ => rfl | ⟨2, _⟩ => rfl | ⟨3, _⟩ => rfl)
  have e4 : idx_main_v24 (idx_main_v25 (ix5 b n j k o)) = ix1 o := funext fun a => Fin.ext (by
    match a with | ⟨0, _⟩ => rfl)
  rw [e3, e14, e15, e4, selfTerm_at, firstTerm_at, secondTerm_at]
  rfl

/-- The hidden channel: the first layer after its relu. -/
theorem hidden_at (b : Fin 2) (n : Fin 256) (j k : Fin 128) (o : Fin 16) :
    val_main_v27 (F := Ideal) x0 x1 x2 x3 x4 (ix5 b n j k o)
      = max ((((∑ c : Fin 16, x0 (ix3 b n c) * x3 (ix2 (rowA c) o))
            + ∑ c : Fin 16, (x1 (ix3 b j c) - x0 (ix3 b n c)) * x3 (ix2 (rowB c) o))
          + ∑ c : Fin 16, (x2 (ix3 b k c) - x0 (ix3 b n c)) * x3 (ix2 (rowC c) o)) + x4 (ix1 o)) zeroWord := by
  rw [val_main_v27_apply, val_main_call0_v0_apply, val_main_call0_cst_apply, hiddenPre_at]
  rfl

/-- The second layer's product. -/
theorem outProd_at (b : Fin 2) (n : Fin 256) (j k : Fin 128) (q : Fin 16) :
    val_main_v28 (F := Ideal) x0 x1 x2 x3 x4 x5 (ix5 b n j k q)
      = ∑ o : Fin 16, max ((((∑ c : Fin 16, x0 (ix3 b n c) * x3 (ix2 (rowA c) o))
            + ∑ c : Fin 16, (x1 (ix3 b j c) - x0 (ix3 b n c)) * x3 (ix2 (rowB c) o))
          + ∑ c : Fin 16, (x2 (ix3 b k c) - x0 (ix3 b n c)) * x3 (ix2 (rowC c) o)) + x4 (ix1 o)) zeroWord
            * x5 (ix2 o q) := by
  rw [val_main_v28_apply]
  refine Finset.sum_congr rfl fun o _ => ?_
  have el : lidx_main_v28 (ix5 b n j k q) o = ix5 b n j k o := funext fun a => Fin.ext (by
    match a with | ⟨0, _⟩ => rfl | ⟨1, _⟩ => rfl | ⟨2, _⟩ => rfl | ⟨3, _⟩ => rfl | ⟨4, _⟩ => rfl)
  have er : ridx_main_v28 (ix5 b n j k q) o = ix2 o q := funext fun a => Fin.ext (by
    match a with | ⟨0, _⟩ => rfl | ⟨1, _⟩ => rfl)
  rw [el, er, hidden_at]

/-- THE PAIR'S FEATURE: the reference's five-axis tensor at (b, n, j, k, q) is the specification's feature. -/
theorem feature_eq (b : Fin 2) (n : Fin 256) (j k : Fin 128) (q : Fin 16) :
    val_main_v32 (F := Ideal) x0 x1 x2 x3 x4 x5 x6 (ix5 b n j k q)
      = Cert.PairPool.feature x0 x1 x2 x3 x4 x5 x6 b n j k q := by
  rw [val_main_v32_apply, val_main_call1_v0_apply, val_main_call1_cst_apply, val_main_v31_apply, val_main_v30_apply,
    val_main_v29_apply, outProd_at]
  have e : idx_main_v29 (idx_main_v30 (ix5 b n j k q)) = ix1 q := funext fun a => Fin.ext (by
    match a with | ⟨0, _⟩ => rfl)
  rw [e]
  rfl

/-! ## The pooling reductions -/

/-- The tensor index of the pair (j, k) at batch b, point n and channel q of an 8-channel half. -/
def pairIdx (b : Fin 2) (n : Fin 256) (q : Fin 8) (jk : Fin 128 × Fin 128) : S2x256x128x128x8.Idx :=
  ix5 b n jk.1 jk.2 q

/-- Different pairs sit at different tensor indices. -/
theorem pairIdx_injective (b : Fin 2) (n : Fin 256) (q : Fin 8) : Function.Injective (pairIdx b n q) := by
  intro p p' h
  exact Prod.ext (congrFun h 2) (congrFun h 3)

/-- Removing the two pair axes from a pair's tensor index leaves (b, n, q). -/
theorem drop_pairIdx (b : Fin 2) (n : Fin 256) (q : Fin 8) (jk : Fin 128 × Fin 128) :
    reducesTo_S2x256x128x128x8_S2x256x8_d2_3.drop (pairIdx b n q jk) = ix3 b n q :=
  funext fun a => Fin.ext (by
    match a with
    | ⟨0, _⟩ => exact Shape.ReducesTo.drop_apply_val_of_eq reducesTo_S2x256x128x128x8_S2x256x8_d2_3 (pairIdx b n q jk) 0 0
    | ⟨1, _⟩ => exact Shape.ReducesTo.drop_apply_val_of_eq reducesTo_S2x256x128x128x8_S2x256x8_d2_3 (pairIdx b n q jk) 1 1
    | ⟨2, _⟩ => exact Shape.ReducesTo.drop_apply_val_of_eq reducesTo_S2x256x128x128x8_S2x256x8_d2_3 (pairIdx b n q jk) 2 4)

/-- The tensor indices that reduce to (b, n, q) are exactly the pairs' indices. -/
theorem fiber_eq (b : Fin 2) (n : Fin 256) (q : Fin 8) :
    (Finset.univ.filter fun i : S2x256x128x128x8.Idx =>
        reducesTo_S2x256x128x128x8_S2x256x8_d2_3.drop i = ix3 b n q)
      = Finset.univ.image (pairIdx b n q) := by
  ext i
  simp only [Finset.mem_filter, Finset.mem_univ, true_and, Finset.mem_image]
  constructor
  · intro hd
    refine ⟨(i 2, i 3), ?_⟩
    have h0 : (i 0).val = b.val :=
      (Shape.ReducesTo.drop_apply_val_of_eq reducesTo_S2x256x128x128x8_S2x256x8_d2_3 i 0 0).symm.trans
        (congrArg Fin.val (congrFun hd 0))
    have h1 : (i 1).val = n.val :=
      (Shape.ReducesTo.drop_apply_val_of_eq reducesTo_S2x256x128x128x8_S2x256x8_d2_3 i 1 1).symm.trans
        (congrArg Fin.val (congrFun hd 1))
    have h4 : (i 4).val = q.val :=
      (Shape.ReducesTo.drop_apply_val_of_eq reducesTo_S2x256x128x128x8_S2x256x8_d2_3 i 2 4).symm.trans
        (congrArg Fin.val (congrFun hd 2))
    funext a
    match a with
    | ⟨0, _⟩ => exact Fin.ext h0.symm
    | ⟨1, _⟩ => exact Fin.ext h1.symm
    | ⟨2, _⟩ => rfl
    | ⟨3, _⟩ => rfl
    | ⟨4, _⟩ => exact Fin.ext h4.symm
  · rintro ⟨jk, rfl⟩
    exact drop_pairIdx b n q jk

/-- A running maximum that starts from the least element is the supremum. -/
theorem fold_max_eq_sup {ι : Type} (s : Finset ι) (f : ι → EReal) (init : EReal) (h : init = ⊥) :
    s.fold (FloatOps.maximumf (F := Ideal) (φ := .f32)) init f = s.sup f := by
  subst h
  rfl

/-- The maximum over the pairs, on a channel of the first half. -/
theorem poolMax_at (b : Fin 2) (n : Fin 256) (q : Fin 16) (hq : q.val < 8) :
    val_main_v34 (F := Ideal) x0 x1 x2 x3 x4 x5 x6 (ix3 b n (⟨q.val, hq⟩ : Fin 8))
      = Cert.PairPool.pooledMax x0 x1 x2 x3 x4 x5 x6 b n q := by
  unfold val_main_v34
  refine (Host.reduce_eq_fold _ _ _ _ _ _).trans ?_
  rw [fiber_eq]
  refine (fold_max_eq_sup _ _ _ Consts.ofBits_negInf).trans ?_
  rw [Finset.sup_image]
  unfold Cert.PairPool.pooledMax
  refine Finset.sup_congr rfl fun jk _ => ?_
  show val_main_v33 (F := Ideal) x0 x1 x2 x3 x4 x5 x6 (ix5 b n jk.1 jk.2 (⟨q.val, hq⟩ : Fin 8)) = _
  rw [val_main_v33_apply]
  have e : idx_main_v33 (ix5 b n jk.1 jk.2 (⟨q.val, hq⟩ : Fin 8)) = ix5 b n jk.1 jk.2 q := funext fun a => Fin.ext (by
    match a with | ⟨0, _⟩ => rfl | ⟨1, _⟩ => rfl | ⟨2, _⟩ => rfl | ⟨3, _⟩ => rfl | ⟨4, _⟩ => rfl)
  rw [e]
  exact feature_eq x0 x1 x2 x3 x4 x5 x6 b n jk.1 jk.2 q

/-- The sum over the pairs, on a channel of the second half. -/
theorem poolSum_at (b : Fin 2) (n : Fin 256) (q : Fin 16) (hq : 8 ≤ q.val) :
    val_main_v36 (F := Ideal) x0 x1 x2 x3 x4 x5 x6 (ix3 b n (⟨q.val - 8, by have := q.isLt; omega⟩ : Fin 8))
      = Cert.PairPool.pooledSum x0 x1 x2 x3 x4 x5 x6 b n q := by
  show Ideal.ofBits .f32 0x00000000#32
      + ∑ i ∈ Finset.univ.filter (fun i : S2x256x128x128x8.Idx =>
          reducesTo_S2x256x128x128x8_S2x256x8_d2_3.drop i = ix3 b n (⟨q.val - 8, by have := q.isLt; omega⟩ : Fin 8)),
          val_main_v35 (F := Ideal) x0 x1 x2 x3 x4 x5 x6 i = _
  rw [Ideal.ofBits_zero_f32, zero_add, fiber_eq,
    Finset.sum_image fun p _ p' _ h => pairIdx_injective _ _ _ h]
  unfold Cert.PairPool.pooledSum
  refine Finset.sum_congr rfl fun jk _ => ?_
  show val_main_v35 (F := Ideal) x0 x1 x2 x3 x4 x5 x6
      (ix5 b n jk.1 jk.2 (⟨q.val - 8, by have := q.isLt; omega⟩ : Fin 8)) = _
  rw [val_main_v35_apply]
  have e : idx_main_v35 (ix5 b n jk.1 jk.2 (⟨q.val - 8, by have := q.isLt; omega⟩ : Fin 8)) = ix5 b n jk.1 jk.2 q :=
    funext fun a => Fin.ext (by
      match a with
      | ⟨0, _⟩ => rfl
      | ⟨1, _⟩ => rfl
      | ⟨2, _⟩ => rfl
      | ⟨3, _⟩ => rfl
      | ⟨4, _⟩ => show 8 + (q.val - 8) = q.val; omega)
  rw [e]
  exact feature_eq x0 x1 x2 x3 x4 x5 x6 b n jk.1 jk.2 q

/-- The mean over the pairs: the sum divided by 16384 is the sum times 2⁻¹⁴. -/
theorem poolMean_at (b : Fin 2) (n : Fin 256) (q : Fin 16) (hq : 8 ≤ q.val) :
    val_main_v38 (F := Ideal) x0 x1 x2 x3 x4 x5 x6 (ix3 b n (⟨q.val - 8, by have := q.isLt; omega⟩ : Fin 8))
      = Cert.PairPool.pooledSum x0 x1 x2 x3 x4 x5 x6 b n q * Ideal.ofBits .f32 0x38800000#32 := by
  rw [val_main_v38_apply, val_main_v37_apply, val_main_cst_1_apply, poolSum_at x0 x1 x2 x3 x4 x5 x6 b n q hq]
  exact Consts.div_16384 _

/-! ## The concatenation, and the result -/

/-- On a channel below 8 the result is the maximum. -/
theorem ref_at_lt (b : Fin 2) (n : Fin 256) (q : Fin 16) (hq : q.val < 8) :
    val_main_v39 (F := Ideal) x0 x1 x2 x3 x4 x5 x6 (ix3 b n q)
      = Cert.PairPool.pooledMax x0 x1 x2 x3 x4 x5 x6 b n q := by
  unfold val_main_v39
  refine (concatenate_pair_apply_left (2 : Fin S2x256x16.rank) _ _ concatenates_S2x256x8_S2x256x8_S2x256x16_d2
    (ix3 b n q) rfl (ix3 b n (⟨q.val, hq⟩ : Fin 8)) (fun a => by
      match a with | ⟨0, _⟩ => rfl | ⟨1, _⟩ => rfl | ⟨2, _⟩ => rfl)).trans ?_
  exact poolMax_at x0 x1 x2 x3 x4 x5 x6 b n q hq

/-- On a channel from 8 on the result is the mean. -/
theorem ref_at_ge (b : Fin 2) (n : Fin 256) (q : Fin 16) (hq : 8 ≤ q.val) :
    val_main_v39 (F := Ideal) x0 x1 x2 x3 x4 x5 x6 (ix3 b n q)
      = Cert.PairPool.pooledSum x0 x1 x2 x3 x4 x5 x6 b n q * Ideal.ofBits .f32 0x38800000#32 := by
  unfold val_main_v39
  refine (concatenate_pair_apply_right (2 : Fin S2x256x16.rank) _ _ concatenates_S2x256x8_S2x256x8_S2x256x16_d2
    (ix3 b n q) rfl rfl (ix3 b n (⟨q.val - 8, by have := q.isLt; omega⟩ : Fin 8)) (fun a ha => by
      match a with
      | ⟨0, _⟩ => rfl
      | ⟨1, _⟩ => rfl
      | ⟨2, _⟩ => exact absurd rfl ha) (by show q.val - 8 + 8 = q.val; omega)).trans ?_
  exact poolMean_at x0 x1 x2 x3 x4 x5 x6 b n q hq

/-- THE REFERENCE PROGRAM'S RESULT IS THE SPECIFICATION. -/
theorem ref_eq_pooled :
    Cert.ReferenceIdeal.ReadP.val_main_v39 (F := Ideal) x0 x1 x2 x3 x4 x5 x6
      = Cert.PairPool.pooled x0 x1 x2 x3 x4 x5 x6 := by
  funext i
  obtain ⟨b, n, q, rfl⟩ : ∃ (b : Fin 2) (n : Fin 256) (q : Fin 16), i = ix3 b n q := ⟨i 0, i 1, i 2, eq_ix3 i⟩
  unfold Cert.PairPool.pooled
  by_cases hq : q.val < 8
  · rw [ref_at_lt x0 x1 x2 x3 x4 x5 x6 b n q hq]
    exact (if_pos hq).symm
  · rw [ref_at_ge x0 x1 x2 x3 x4 x5 x6 b n q (by omega)]
    exact (if_neg hq).symm

end Cert.PairPool.Ref

end
-- ==== Proof.Pool.lean ====
/-
  Pooling over all pairs, chunk by chunk.

  The pairs (j, k) of 128 × 128 are visited in 16 chunks of 8 · 128: chunk i holds the rows j = 8i … 8i + 7, and
  position r of a chunk is the pair (8i + r / 128, r mod 128). This is a bijection between chunk-and-position and
  the pairs, so a sum of per-chunk sums is the sum over all pairs and a supremum of per-chunk suprema is the supremum
  over all pairs — in any commutative monoid, and in any order with suprema and a least element. A value carried
  through the chunks by "add the chunk's sum" (from 0) or "take the larger of it and the chunk's supremum" (from the
  least element) is therefore the total.
-/
import Idealize.ShloMosaic.PureOps.Ideal

namespace Cert.PairPool.Pool

/-- Chunk `i` and position `r` name the pair (8i + r / 128, r mod 128); every pair is named exactly once. -/
def pairOf : Fin 16 × Fin 1024 ≃ Fin 128 × Fin 128 where
  toFun x := (⟨8 * x.1.val + x.2.val / 128, by have := x.1.isLt; have := x.2.isLt; omega⟩,
              ⟨x.2.val % 128, Nat.mod_lt _ (by norm_num)⟩)
  invFun y := (⟨y.1.val / 8, by have := y.1.isLt; omega⟩,
               ⟨(y.1.val % 8) * 128 + y.2.val, by have := y.1.isLt; have := y.2.isLt; omega⟩)
  left_inv := by
    rintro ⟨i, r⟩
    have := i.isLt; have := r.isLt
    refine Prod.ext (Fin.ext ?_) (Fin.ext ?_)
    · show (8 * i.val + r.val / 128) / 8 = i.val; omega
    · show ((8 * i.val + r.val / 128) % 8) * 128 + r.val % 128 = r.val; omega
  right_inv := by
    rintro ⟨j, k⟩
    have := j.isLt; have := k.isLt
    refine Prod.ext (Fin.ext ?_) (Fin.ext ?_)
    · show 8 * (j.val / 8) + ((j.val % 8) * 128 + k.val) / 128 = j.val; omega
    · show ((j.val % 8) * 128 + k.val) % 128 = k.val; omega

theorem pairOf_fst (i : Fin 16) (r : Fin 1024) : (pairOf (i, r)).1.val = 8 * i.val + r.val / 128 := rfl
theorem pairOf_snd (i : Fin 16) (r : Fin 1024) : (pairOf (i, r)).2.val = r.val % 128 := rfl

/-- The sum over the chunks of each chunk's sum is the sum over all pairs. -/
theorem sum_chunks {M : Type*} [AddCommMonoid M] (f : Fin 128 → Fin 128 → M) :
    ∑ i : Fin 16, ∑ r : Fin 1024, f (pairOf (i, r)).1 (pairOf (i, r)).2 = ∑ jk : Fin 128 × Fin 128, f jk.1 jk.2 :=
  (Fintype.sum_prod_type' (fun (i : Fin 16) (r : Fin 1024) => f (pairOf (i, r)).1 (pairOf (i, r)).2)).symm.trans
    (Fintype.sum_equiv pairOf _ _ fun _ => rfl)

/-- The supremum over the chunks of each chunk's supremum is the supremum over all pairs. -/
theorem sup_chunks {α : Type*} [SemilatticeSup α] [OrderBot α] (f : Fin 128 → Fin 128 → α) :
    (Finset.univ.sup fun i : Fin 16 => Finset.univ.sup fun r : Fin 1024 => f (pairOf (i, r)).1 (pairOf (i, r)).2)
      = Finset.univ.sup fun jk : Fin 128 × Fin 128 => f jk.1 jk.2 := by
  apply le_antisymm
  · refine Finset.sup_le fun i _ => Finset.sup_le fun r _ => ?_
    exact Finset.le_sup (f := fun jk : Fin 128 × Fin 128 => f jk.1 jk.2) (Finset.mem_univ (pairOf (i, r)))
  · refine Finset.sup_le fun jk _ => ?_
    have e : pairOf ((pairOf.symm jk).1, (pairOf.symm jk).2) = jk := pairOf.apply_symm_apply jk
    have h1 : f jk.1 jk.2 = f (pairOf ((pairOf.symm jk).1, (pairOf.symm jk).2)).1
        (pairOf ((pairOf.symm jk).1, (pairOf.symm jk).2)).2 := by rw [e]
    rw [h1]
    exact le_trans
      (Finset.le_sup (f := fun r : Fin 1024 => f (pairOf ((pairOf.symm jk).1, r)).1 (pairOf ((pairOf.symm jk).1, r)).2)
        (Finset.mem_univ _))
      (Finset.le_sup (f := fun i : Fin 16 => Finset.univ.sup fun r : Fin 1024 =>
        f (pairOf (i, r)).1 (pairOf (i, r)).2) (Finset.mem_univ _))

/-- A value that starts at the least element and takes, trip by trip, the larger of itself and the trip's value
    is the supremum of the trips' values so far. -/
theorem run_sup {α : Type*} [SemilatticeSup α] [OrderBot α] (cm run : ℕ → α) (h0 : run 0 = ⊥)
    (hs : ∀ k, run (k + 1) = run k ⊔ cm k) (n : ℕ) : run n = (Finset.range n).sup cm := by
  induction n with
  | zero => simpa using h0
  | succ k ih => rw [hs, ih, Finset.range_add_one, Finset.sup_insert, sup_comm]

/-- A value that starts at zero and adds, trip by trip, the trip's value is the sum of the trips' values so far. -/
theorem run_sum {M : Type*} [AddCommMonoid M] (cs run : ℕ → M) (h0 : run 0 = 0)
    (hs : ∀ k, run (k + 1) = run k + cs k) (n : ℕ) : run n = ∑ k ∈ Finset.range n, cs k := by
  induction n with
  | zero => simpa using h0
  | succ k ih => rw [hs, ih, Finset.sum_range_succ]

/-- A supremum over the numbers below `n` is the supremum over `Fin n`. -/
theorem sup_range {α : Type*} [SemilatticeSup α] [OrderBot α] (n : ℕ) (cm : ℕ → α) :
    (Finset.range n).sup cm = Finset.univ.sup fun i : Fin n => cm i.val := by
  apply le_antisymm
  · exact Finset.sup_le fun k hk =>
      Finset.le_sup (f := fun i : Fin n => cm i.val) (Finset.mem_univ (⟨k, Finset.mem_range.mp hk⟩ : Fin n))
  · exact Finset.sup_le fun i _ => Finset.le_sup (Finset.mem_range.mpr i.isLt)

/-- Folding `max` over a finite family from a starting value is the larger of that value and the family's
    supremum. -/
theorem fold_max_eq_sup {ι : Type*} (s : Finset ι) (b : EReal) (f : ι → EReal) :
    s.fold max b f = b ⊔ s.sup f := by
  classical
  induction s using Finset.induction_on with
  | empty => simp
  | insert a s ha ih =>
    rw [Finset.fold_insert ha, ih, Finset.sup_insert]
    exact max_left_comm _ _ _

end Cert.PairPool.Pool
-- ==== Proof.KernelLoop.lean ====
/-
  The kernel body as a function of the blocks it is handed.

  At one grid point the body holds a block of 8 points of x, the whole batch rows of x1 and x2, and the weights. It
  streams over x1 in 16 chunks of 8 rows: trip k reads rows 8k … 8k+7, forms the chunk's tensor of pair features, and
  folds its maximum and its sum over the pairs into two carried [8, 16] arrays, which start at −∞ and at 0. So the two
  carried arrays after n trips are given by a plain recursion on n, and the block the body stores is the first eight
  channels of the carried maximum beside the last eight channels of the carried sum times 2⁻¹⁴.
-/
import proofs.«171986_j43078521979326_2_alg».proof.Proof.Gen.KernelIdeal.Frame
import Idealize.ShloMosaic.Lib.Pipeline.Value

noncomputable section

namespace Cert.PairPool.KernelLoop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Rows 8k … 8k+7 of the staged rows of x1: the chunk that trip `k` reads. -/
def chunk (x1 : Vec F S1x128x16 .f32) (k : Fin k0_t1_loop.trips) : Vec F S1x8x16 .f32 :=
  View.ld x1 (Rect.unit (s := S1x128x16) (k0_off1 k) S1x8x16.size (k0_off1_inb k))

/-- One trip: the carried maximum and sum after the chunk's pairs are folded in; past the last trip, nothing. -/
def step (v0 : Vec F S1x8x16 .f32) (v2 : Vec F S1x128x16 .f32) (v4 v6 v8 v10 : Vec F S16x16 .f32) (v12 v13 : Vec F S16 .f32) (x1 : Vec F S1x128x16 .f32) (k : ℕ)
    (acc : FVec F S8x16 .f32 × FVec F S8x16 .f32) : FVec F S8x16 .f32 × FVec F S8x16 .f32 :=
  if h : k < k0_t1_loop.trips then
    (k0_pay5 v0 v2 v4 v6 v8 v10 v12 v13 acc.1 (chunk x1 ⟨k, h⟩), k0_pay6 v0 v2 v4 v6 v8 v10 v12 v13 acc.2 (chunk x1 ⟨k, h⟩))
  else acc

/-- The carried maximum and sum before trip `n`: −∞ and 0 before the first. -/
def carried (v0 : Vec F S1x8x16 .f32) (v2 : Vec F S1x128x16 .f32) (v4 v6 v8 v10 : Vec F S16x16 .f32) (v12 v13 : Vec F S16 .f32) (x1 : Vec F S1x128x16 .f32) :
    ℕ → FVec F S8x16 .f32 × FVec F S8x16 .f32
  | 0 => (k0_pay2, k0_pay3)
  | n + 1 => step v0 v2 v4 v6 v8 v10 v12 v13 x1 n (carried v0 v2 v4 v6 v8 v10 v12 v13 x1 n)

/-- The loop's carried value, as the frame's run names it, is that recursion. -/
theorem carried_eq (𝒱 : Variants) (c : Dev nD) (bd : Option 𝒱.V) (i : grid0.Coords) (arg2 : Memref sig .tc .vmem S1x8x16 .f32) (harg2 : arg2.IsWhole) (arg3 : Memref sig .tc .vmem S1x128x16 .f32) (harg3 : arg3.IsWhole) (arg4 : Memref sig .tc .vmem S1x128x16 .f32) (harg4 : arg4.IsWhole) (arg5 : Memref sig .tc .vmem S48x16 .f32) (harg5 : arg5.IsWhole) (arg6 : Memref sig .tc .vmem S16 .f32) (harg6 : arg6.IsWhole) (arg7 : Memref sig .tc .vmem S16x16 .f32) (harg7 : arg7.IsWhole) (arg8 : Memref sig .tc .vmem S16 .f32) (harg8 : arg8.IsWhole) (arg9 : Memref sig .tc .vmem S1x8x16 .f32) (harg9 : arg9.IsWhole)
    (v0 : Vec F S1x8x16 .f32) (v2 : Vec F S1x128x16 .f32) (v4 v6 v8 v10 : Vec F S16x16 .f32) (v12 v13 : Vec F S16 .f32) (x1 : Vec F S1x128x16 .f32) (n : ℕ) :
    st_k0_t1 (F := F) 𝒱 c bd i arg2 harg2 arg3 harg3 arg4 harg4 arg5 harg5 arg6 harg6 arg7 harg7 arg8 harg8 arg9 harg9 v0 v2 v4 v6 v8 v10 v12 v13 (harg3.unread x1) (k0_pay2, k0_pay3) n
      = carried v0 v2 v4 v6 v8 v10 v12 v13 x1 n := by
  induction n with
  | zero => rfl
  | succ n ih =>
    rw [st_k0_t1.eq_2, ih]
    unfold st_k0_t1Step
    show _ = step v0 v2 v4 v6 v8 v10 v12 v13 x1 n (carried v0 v2 v4 v6 v8 v10 v12 v13 x1 n)
    unfold step
    split
    · rename_i h
      unfold tripR_k0_t1 trip_k0_t1
      dsimp only
      simp only [View.readAt_eq_ld, harg3.read_unread]
      rfl
    · rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The three 16-row blocks of the staged first-layer matrix, as the body loads them. -/
def blockA (x3 : Vec F S48x16 .f32) : Vec F S16x16 .f32 :=
  View.ld x3 (Rect.unit (s := S48x16) ![0, 0] S16x16.size inb_S48x16_S16x16_0_0)
def blockB (x3 : Vec F S48x16 .f32) : Vec F S16x16 .f32 :=
  View.ld x3 (Rect.unit (s := S48x16) ![16, 0] S16x16.size inb_S48x16_S16x16_16_0)
def blockC (x3 : Vec F S48x16 .f32) : Vec F S16x16 .f32 :=
  View.ld x3 (Rect.unit (s := S48x16) ![32, 0] S16x16.size inb_S48x16_S16x16_32_0)

/-- What the body leaves in the output's staging buffer: the first eight channels of the carried maximum beside
    the last eight of the carried sum times 2⁻¹⁴, after all the trips. -/
theorem out_eq (c : Dev nD) (i : grid0.Coords) (arg2 : Memref sig .tc .vmem S1x8x16 .f32) (harg2 : arg2.IsWhole) (arg3 : Memref sig .tc .vmem S1x128x16 .f32) (harg3 : arg3.IsWhole) (arg4 : Memref sig .tc .vmem S1x128x16 .f32) (harg4 : arg4.IsWhole) (arg5 : Memref sig .tc .vmem S48x16 .f32) (harg5 : arg5.IsWhole) (arg6 : Memref sig .tc .vmem S16 .f32) (harg6 : arg6.IsWhole) (arg7 : Memref sig .tc .vmem S16x16 .f32) (harg7 : arg7.IsWhole) (arg8 : Memref sig .tc .vmem S16 .f32) (harg8 : arg8.IsWhole) (arg9 : Memref sig .tc .vmem S1x8x16 .f32) (harg9 : arg9.IsWhole)
    (x0 : Vec F S1x8x16 .f32) (x1 : Vec F S1x128x16 .f32) (x2 : Vec F S1x128x16 .f32) (x3 : Vec F S48x16 .f32) (x4 : Vec F S16 .f32) (x5 : Vec F S16x16 .f32) (x6 : Vec F S16 .f32) :
    out0_A_7 (F := F) c i arg2 harg2 arg3 harg3 arg4 harg4 arg5 harg5 arg6 harg6 arg7 harg7 arg8 harg8 arg9 harg9 x0 x1 x2 x3 x4 x5 x6
      = k0_pay1 (k0_pay7 (carried x0 x2 (blockA x3) (blockB x3) (blockC x3) x5 x4 x6 x1 k0_t1_loop.trips).1)
          (k0_pay8 (carried x0 x2 (blockA x3) (blockB x3) (blockC x3) x5 x4 x6 x1 k0_t1_loop.trips).2) := by
  unfold out0_A_7
  rw [View.read_writes_eq_canon _ _ _ (cover0_A_7 (F := F) c i arg2 harg2 arg3 harg3 arg4 harg4 arg5 harg5 arg6 harg6 arg7 harg7 arg8 harg8 arg9 harg9 x0 x1 x2 x3 x4 x5 x6)]
  unfold kernelRun0_A
  dsimp only
  sl_unfold_run_names
  rw [View.canon_unit_zero hz3]
  simp only [View.readAt_eq_ld, harg2.read_unread, harg4.read_unread, harg5.read_unread, harg6.read_unread,
    harg7.read_unread, harg8.read_unread, View.ld_unit_zero (S := S1x8x16) hz3, View.ld_unit_zero (S := S1x128x16) hz3,
    View.ld_unit_zero (S := S16x16) hz2, View.ld_unit_zero (S := S16) hz1, carried_eq]
  rfl

end Cert.PairPool.KernelLoop

end
-- ==== Proof.ChunkValue.lean ====
/-
  One chunk of the kernel's streamed computation, read at an index.

  A grid step holds 8 points of x and walks over x1 in chunks of 8 rows. For one chunk the kernel builds the tensor of
  pair features of shape [8, 1024, 16]: its first axis is the point p of x, its middle axis is (row jj of the chunk) · 128
  + (point k of x2) in row-major order, its last axis is the output channel q. This module proves that the tensor's
  entry at (p, jj · 128 + k, q) is the specification's `pairFeature` of the three 16-vectors x_p, x1_jj, x2_k and the
  weight blocks.

  The first layer is linear in the concatenation [x, x1 − x, x2 − x], so the kernel computes it as three products, one
  per 16-row block of the first matrix, on three differently shaped operands: x itself ([8, 16]), the differences
  x1_jj − x_p flattened to [64, 16], and the differences x2_k − x_p flattened to [1024, 16]. The three products are put
  back on the axes (p, jj, k) by reshapes and broadcasts, added with the bias, passed through the relu, flattened to
  [8192, 16], multiplied by the second matrix, biased, passed through the second relu and reshaped to [8, 1024, 16].
  Every reshape is a statement about row-major positions: (p · 8 + jj) · 128 + k = p · 1024 + (jj · 128 + k).
  The roundings to the 16-bit format before each product are the identity on the extended reals.
-/
import proofs.«171986_j43078521979326_2_alg».proof.Proof.Spec
import proofs.«171986_j43078521979326_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.PairPool.Chunk

open Idealize.ShloMosaic Idealize.ShloMosaic.ValueIdx Cert.KernelIdeal Cert.KernelIdeal.Gen

/-! ## The four products with a 16 × 16 matrix -/

/-- The left operand's row in the product [8, 16] · [16, 16] is the result's row. -/
theorem mm8_lhs_row (i : S8x16.Idx) (q : dot_S8x16_S16x16_S8x16_1_0_0_1_n_n.contr.Idx) : (dot_S8x16_S16x16_S8x16_1_0_0_1_n_n.lhsIdx i q 0).val = (i 0).val := by
  unfold DotDims.lhsIdx
  rw [dif_neg (show ¬(0 : Fin S8x16.rank) ∈ dot_S8x16_S16x16_S8x16_1_0_0_1_n_n.lhsBatch by decide),
    dif_pos (show (0 : Fin S8x16.rank) ∈ dot_S8x16_S16x16_S8x16_1_0_0_1_n_n.lhsNonContracting by decide)]
  rfl
/-- The right operand's column in the product [8, 16] · [16, 16] is the result's column. -/
theorem mm8_rhs_col (i : S8x16.Idx) (q : dot_S8x16_S16x16_S8x16_1_0_0_1_n_n.contr.Idx) : (dot_S8x16_S16x16_S8x16_1_0_0_1_n_n.rhsIdx i q 1).val = (i 1).val := by
  unfold DotDims.rhsIdx
  rw [dif_neg (show ¬(1 : Fin S16x16.rank) ∈ dot_S8x16_S16x16_S8x16_1_0_0_1_n_n.rhsBatch by decide),
    dif_pos (show (1 : Fin S16x16.rank) ∈ dot_S8x16_S16x16_S8x16_1_0_0_1_n_n.rhsNonContracting by decide)]
  rfl
/-- The product [8, 16] · [16, 16] accumulated into zero reads, at (r, o), the 16-term sum of row r of the left operand
    against column o of the right one. -/
theorem mm8_apply {φ₁ φ₂ : FTy} (lhs : FVec Ideal S8x16 φ₁) (rhs : FVec Ideal S16x16 φ₂) (r : Fin 8) (o : Fin 16) :
    matmul (F := Ideal) dot_S8x16_S16x16_S8x16_1_0_0_1_n_n none lhs rhs (constant (F := Ideal) S8x16 .f32 0x00000000#32) (ix2 r o)
      = ∑ c : Fin 16, lhs (ix2 r c) * rhs (ix2 c o) := by
  refine (Ideal.matmul_constant_zero_apply dot_S8x16_S16x16_S8x16_1_0_0_1_n_n none lhs rhs (ix2 r o)).trans ?_
  rw [← Equiv.sum_comp (contrEquiv1 dot_S8x16_S16x16_S8x16_1_0_0_1_n_n 16 rfl rfl).symm]
  refine Finset.sum_congr rfl fun c _ => ?_
  have hk := contrEquiv1_symm_val dot_S8x16_S16x16_S8x16_1_0_0_1_n_n 16 rfl rfl c
  have el : dot_S8x16_S16x16_S8x16_1_0_0_1_n_n.lhsIdx (ix2 r o) ((contrEquiv1 dot_S8x16_S16x16_S8x16_1_0_0_1_n_n 16 rfl rfl).symm c) = ix2 r c :=
    funext fun a => Fin.ext (by
      match a with
      | ⟨0, _⟩ => exact mm8_lhs_row _ _
      | ⟨1, _⟩ => exact (dot_S8x16_S16x16_S8x16_1_0_0_1_n_n.lhsIdx_val_of_single rfl _ _).trans hk)
  have er : dot_S8x16_S16x16_S8x16_1_0_0_1_n_n.rhsIdx (ix2 r o) ((contrEquiv1 dot_S8x16_S16x16_S8x16_1_0_0_1_n_n 16 rfl rfl).symm c) = ix2 c o :=
    funext fun a => Fin.ext (by
      match a with
      | ⟨0, _⟩ => exact (dot_S8x16_S16x16_S8x16_1_0_0_1_n_n.rhsIdx_val_of_single rfl _ _).trans hk
      | ⟨1, _⟩ => exact mm8_rhs_col _ _)
  rw [el, er]

/-- The left operand's row in the product [64, 16] · [16, 16] is the result's row. -/
theorem mm64_lhs_row (i : S64x16.Idx) (q : dot_S64x16_S16x16_S64x16_1_0_0_1_n_n.contr.Idx) : (dot_S64x16_S16x16_S64x16_1_0_0_1_n_n.lhsIdx i q 0).val = (i 0).val := by
  unfold DotDims.lhsIdx
  rw [dif_neg (show ¬(0 : Fin S64x16.rank) ∈ dot_S64x16_S16x16_S64x16_1_0_0_1_n_n.lhsBatch by decide),
    dif_pos (show (0 : Fin S64x16.rank) ∈ dot_S64x16_S16x16_S64x16_1_0_0_1_n_n.lhsNonContracting by decide)]
  rfl
/-- The right operand's column in the product [64, 16] · [16, 16] is the result's column. -/
theorem mm64_rhs_col (i : S64x16.Idx) (q : dot_S64x16_S16x16_S64x16_1_0_0_1_n_n.contr.Idx) : (dot_S64x16_S16x16_S64x16_1_0_0_1_n_n.rhsIdx i q 1).val = (i 1).val := by
  unfold DotDims.rhsIdx
  rw [dif_neg (show ¬(1 : Fin S16x16.rank) ∈ dot_S64x16_S16x16_S64x16_1_0_0_1_n_n.rhsBatch by decide),
    dif_pos (show (1 : Fin S16x16.rank) ∈ dot_S64x16_S16x16_S64x16_1_0_0_1_n_n.rhsNonContracting by decide)]
  rfl
/-- The product [64, 16] · [16, 16] accumulated into zero reads, at (r, o), the 16-term sum of row r of the left operand
    against column o of the right one. -/
theorem mm64_apply {φ₁ φ₂ : FTy} (lhs : FVec Ideal S64x16 φ₁) (rhs : FVec Ideal S16x16 φ₂) (r : Fin 64) (o : Fin 16) :
    matmul (F := Ideal) dot_S64x16_S16x16_S64x16_1_0_0_1_n_n none lhs rhs (constant (F := Ideal) S64x16 .f32 0x00000000#32) (ix2 r o)
      = ∑ c : Fin 16, lhs (ix2 r c) * rhs (ix2 c o) := by
  refine (Ideal.matmul_constant_zero_apply dot_S64x16_S16x16_S64x16_1_0_0_1_n_n none lhs rhs (ix2 r o)).trans ?_
  rw [← Equiv.sum_comp (contrEquiv1 dot_S64x16_S16x16_S64x16_1_0_0_1_n_n 16 rfl rfl).symm]
  refine Finset.sum_congr rfl fun c _ => ?_
  have hk := contrEquiv1_symm_val dot_S64x16_S16x16_S64x16_1_0_0_1_n_n 16 rfl rfl c
  have el : dot_S64x16_S16x16_S64x16_1_0_0_1_n_n.lhsIdx (ix2 r o) ((contrEquiv1 dot_S64x16_S16x16_S64x16_1_0_0_1_n_n 16 rfl rfl).symm c) = ix2 r c :=
    funext fun a => Fin.ext (by
      match a with
      | ⟨0, _⟩ => exact mm64_lhs_row _ _
      | ⟨1, _⟩ => exact (dot_S64x16_S16x16_S64x16_1_0_0_1_n_n.lhsIdx_val_of_single rfl _ _).trans hk)
  have er : dot_S64x16_S16x16_S64x16_1_0_0_1_n_n.rhsIdx (ix2 r o) ((contrEquiv1 dot_S64x16_S16x16_S64x16_1_0_0_1_n_n 16 rfl rfl).symm c) = ix2 c o :=
    funext fun a => Fin.ext (by
      match a with
      | ⟨0, _⟩ => exact (dot_S64x16_S16x16_S64x16_1_0_0_1_n_n.rhsIdx_val_of_single rfl _ _).trans hk
      | ⟨1, _⟩ => exact mm64_rhs_col _ _)
  rw [el, er]

/-- The left operand's row in the product [1024, 16] · [16, 16] is the result's row. -/
theorem mm1024_lhs_row (i : S1024x16.Idx) (q : dot_S1024x16_S16x16_S1024x16_1_0_0_1_n_n.contr.Idx) : (dot_S1024x16_S16x16_S1024x16_1_0_0_1_n_n.lhsIdx i q 0).val = (i 0).val := by
  unfold DotDims.lhsIdx
  rw [dif_neg (show ¬(0 : Fin S1024x16.rank) ∈ dot_S1024x16_S16x16_S1024x16_1_0_0_1_n_n.lhsBatch by decide),
    dif_pos (show (0 : Fin S1024x16.rank) ∈ dot_S1024x16_S16x16_S1024x16_1_0_0_1_n_n.lhsNonContracting by decide)]
  rfl
/-- The right operand's column in the product [1024, 16] · [16, 16] is the result's column. -/
theorem mm1024_rhs_col (i : S1024x16.Idx) (q : dot_S1024x16_S16x16_S1024x16_1_0_0_1_n_n.contr.Idx) : (dot_S1024x16_S16x16_S1024x16_1_0_0_1_n_n.rhsIdx i q 1).val = (i 1).val := by
  unfold DotDims.rhsIdx
  rw [dif_neg (show ¬(1 : Fin S16x16.rank) ∈ dot_S1024x16_S16x16_S1024x16_1_0_0_1_n_n.rhsBatch by decide),
    dif_pos (show (1 : Fin S16x16.rank) ∈ dot_S1024x16_S16x16_S1024x16_1_0_0_1_n_n.rhsNonContracting by decide)]
  rfl
/-- The product [1024, 16] · [16, 16] accumulated into zero reads, at (r, o), the 16-term sum of row r of the left operand
    against column o of the right one. -/
theorem mm1024_apply {φ₁ φ₂ : FTy} (lhs : FVec Ideal S1024x16 φ₁) (rhs : FVec Ideal S16x16 φ₂) (r : Fin 1024) (o : Fin 16) :
    matmul (F := Ideal) dot_S1024x16_S16x16_S1024x16_1_0_0_1_n_n none lhs rhs (constant (F := Ideal) S1024x16 .f32 0x00000000#32) (ix2 r o)
      = ∑ c : Fin 16, lhs (ix2 r c) * rhs (ix2 c o) := by
  refine (Ideal.matmul_constant_zero_apply dot_S1024x16_S16x16_S1024x16_1_0_0_1_n_n none lhs rhs (ix2 r o)).trans ?_
  rw [← Equiv.sum_comp (contrEquiv1 dot_S1024x16_S16x16_S1024x16_1_0_0_1_n_n 16 rfl rfl).symm]
  refine Finset.sum_congr rfl fun c _ => ?_
  have hk := contrEquiv1_symm_val dot_S1024x16_S16x16_S1024x16_1_0_0_1_n_n 16 rfl rfl c
  have el : dot_S1024x16_S16x16_S1024x16_1_0_0_1_n_n.lhsIdx (ix2 r o) ((contrEquiv1 dot_S1024x16_S16x16_S1024x16_1_0_0_1_n_n 16 rfl rfl).symm c) = ix2 r c :=
    funext fun a => Fin.ext (by
      match a with
      | ⟨0, _⟩ => exact mm1024_lhs_row _ _
      | ⟨1, _⟩ => exact (dot_S1024x16_S16x16_S1024x16_1_0_0_1_n_n.lhsIdx_val_of_single rfl _ _).trans hk)
  have er : dot_S1024x16_S16x16_S1024x16_1_0_0_1_n_n.rhsIdx (ix2 r o) ((contrEquiv1 dot_S1024x16_S16x16_S1024x16_1_0_0_1_n_n 16 rfl rfl).symm c) = ix2 c o :=
    funext fun a => Fin.ext (by
      match a with
      | ⟨0, _⟩ => exact (dot_S1024x16_S16x16_S1024x16_1_0_0_1_n_n.rhsIdx_val_of_single rfl _ _).trans hk
      | ⟨1, _⟩ => exact mm1024_rhs_col _ _)
  rw [el, er]

/-- The left operand's row in the product [8192, 16] · [16, 16] is the result's row. -/
theorem mm8192_lhs_row (i : S8192x16.Idx) (q : dot_S8192x16_S16x16_S8192x16_1_0_0_1_n_n.contr.Idx) : (dot_S8192x16_S16x16_S8192x16_1_0_0_1_n_n.lhsIdx i q 0).val = (i 0).val := by
  unfold DotDims.lhsIdx
  rw [dif_neg (show ¬(0 : Fin S8192x16.rank) ∈ dot_S8192x16_S16x16_S8192x16_1_0_0_1_n_n.lhsBatch by decide),
    dif_pos (show (0 : Fin S8192x16.rank) ∈ dot_S8192x16_S16x16_S8192x16_1_0_0_1_n_n.lhsNonContracting by decide)]
  rfl
/-- The right operand's column in the product [8192, 16] · [16, 16] is the result's column. -/
theorem mm8192_rhs_col (i : S8192x16.Idx) (q : dot_S8192x16_S16x16_S8192x16_1_0_0_1_n_n.contr.Idx) : (dot_S8192x16_S16x16_S8192x16_1_0_0_1_n_n.rhsIdx i q 1).val = (i 1).val := by
  unfold DotDims.rhsIdx
  rw [dif_neg (show ¬(1 : Fin S16x16.rank) ∈ dot_S8192x16_S16x16_S8192x16_1_0_0_1_n_n.rhsBatch by decide),
    dif_pos (show (1 : Fin S16x16.rank) ∈ dot_S8192x16_S16x16_S8192x16_1_0_0_1_n_n.rhsNonContracting by decide)]
  rfl
/-- The product [8192, 16] · [16, 16] accumulated into zero reads, at (r, o), the 16-term sum of row r of the left operand
    against column o of the right one. -/
theorem mm8192_apply {φ₁ φ₂ : FTy} (lhs : FVec Ideal S8192x16 φ₁) (rhs : FVec Ideal S16x16 φ₂) (r : Fin 8192) (o : Fin 16) :
    matmul (F := Ideal) dot_S8192x16_S16x16_S8192x16_1_0_0_1_n_n none lhs rhs (constant (F := Ideal) S8192x16 .f32 0x00000000#32) (ix2 r o)
      = ∑ c : Fin 16, lhs (ix2 r c) * rhs (ix2 c o) := by
  refine (Ideal.matmul_constant_zero_apply dot_S8192x16_S16x16_S8192x16_1_0_0_1_n_n none lhs rhs (ix2 r o)).trans ?_
  rw [← Equiv.sum_comp (contrEquiv1 dot_S8192x16_S16x16_S8192x16_1_0_0_1_n_n 16 rfl rfl).symm]
  refine Finset.sum_congr rfl fun c _ => ?_
  have hk := contrEquiv1_symm_val dot_S8192x16_S16x16_S8192x16_1_0_0_1_n_n 16 rfl rfl c
  have el : dot_S8192x16_S16x16_S8192x16_1_0_0_1_n_n.lhsIdx (ix2 r o) ((contrEquiv1 dot_S8192x16_S16x16_S8192x16_1_0_0_1_n_n 16 rfl rfl).symm c) = ix2 r c :=
    funext fun a => Fin.ext (by
      match a with
      | ⟨0, _⟩ => exact mm8192_lhs_row _ _
      | ⟨1, _⟩ => exact (dot_S8192x16_S16x16_S8192x16_1_0_0_1_n_n.lhsIdx_val_of_single rfl _ _).trans hk)
  have er : dot_S8192x16_S16x16_S8192x16_1_0_0_1_n_n.rhsIdx (ix2 r o) ((contrEquiv1 dot_S8192x16_S16x16_S8192x16_1_0_0_1_n_n 16 rfl rfl).symm c) = ix2 c o :=
    funext fun a => Fin.ext (by
      match a with
      | ⟨0, _⟩ => exact (dot_S8192x16_S16x16_S8192x16_1_0_0_1_n_n.rhsIdx_val_of_single rfl _ _).trans hk
      | ⟨1, _⟩ => exact mm8192_rhs_col _ _)
  rw [el, er]

/-! ## Reshapes read at coordinates

A reshape keeps the row-major position. Each lemma names the source index whose position equals that of the result
index; the side condition is the equation between the two positions. -/

section Layout
variable {α : Type}

/-- [a, b] → [a, 1, b]: the unit axis carries nothing. -/
theorem cast_ab_a1b {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] → [a, 1, 1, b]. -/
theorem cast_ab_a11b {a b : ℕ} (x : (⟨2, ![a, b]⟩ : Shape).Idx → α) (h : (⟨2, ![a, b]⟩ : Shape).ShapeCasts ⟨4, ![a, 1, 1, b]⟩)
    (i : Fin a) (u u' : Fin 1) (j : Fin b) : shapeCast ⟨4, ![a, 1, 1, b]⟩ x h (ix4 i u u' j) = x (ix2 i j) :=
  shapeCast_apply x h _ _ (by
    have hu : u.val = 0 := by omega
    have hu' : u'.val = 0 := by omega
    rw [Shape.rowMajor_val_four, Shape.rowMajor_val_two]
    show i.val * b + j.val = ((i.val * 1 + u.val) * 1 + u'.val) * b + j.val
    simp only [hu, hu', Nat.mul_one, Nat.add_zero])

/-- [a, b, c] → [a, b, 1, c]. -/
theorem cast_abc_ab1c {a b c : ℕ} (x : (⟨3, ![a, b, c]⟩ : Shape).Idx → α) (h : (⟨3, ![a, b, c]⟩ : Shape).ShapeCasts ⟨4, ![a, b, 1, c]⟩)
    (i : Fin a) (j : Fin b) (u : Fin 1) (e : Fin c) : shapeCast ⟨4, ![a, b, 1, c]⟩ x h (ix4 i j u e) = x (ix3 i j e) :=
  shapeCast_apply x h _ _ (by
    have hu : u.val = 0 := by omega
    rw [Shape.rowMajor_val_four, Shape.rowMajor_val_three]
    show (i.val * b + j.val) * c + e.val = ((i.val * b + j.val) * 1 + u.val) * c + e.val
    rw [hu, Nat.mul_one, Nat.add_zero])

/-- [a, b, c] → [a, 1, b, c]. -/
theorem cast_abc_a1bc {a b c : ℕ} (x : (⟨3, ![a, b, c]⟩ : Shape).Idx → α) (h : (⟨3, ![a, b, c]⟩ : Shape).ShapeCasts ⟨4, ![a, 1, b, c]⟩)
    (i : Fin a) (u : Fin 1) (j : Fin b) (e : Fin c) : shapeCast ⟨4, ![a, 1, b, c]⟩ x h (ix4 i u j e) = x (ix3 i j e) :=
  shapeCast_apply x h _ _ (by
    have hu : u.val = 0 := by omega
    rw [Shape.rowMajor_val_four, Shape.rowMajor_val_three]
    show (i.val * b + j.val) * c + e.val = ((i.val * 1 + u.val) * b + j.val) * c + e.val
    rw [hu, Nat.mul_one, Nat.add_zero])

/-- [a] → [1, 1, 1, a]. -/
theorem cast_a_111a {a : ℕ} (x : (⟨1, ![a]⟩ : Shape).Idx → α) (h : (⟨1, ![a]⟩ : Shape).ShapeCasts ⟨4, ![1, 1, 1, a]⟩)
    (u u' u'' : Fin 1) (e : Fin a) : shapeCast ⟨4, ![1, 1, 1, a]⟩ x h (ix4 u u' u'' e) = x (ix1 e) :=
  shapeCast_apply x h _ _ (by
    have hu : u.val = 0 := by omega
    have hu' : u'.val = 0 := by omega
    have hu'' : u''.val = 0 := by omega
    rw [Shape.rowMajor_val_four, Shape.rowMajor_val_one]
    show e.val = ((u.val * 1 + u'.val) * 1 + u''.val) * a + e.val
    simp only [hu, hu', hu'', Nat.mul_one, Nat.add_zero, Nat.zero_mul, Nat.zero_add])

/-- [a, b, c] → [m, c], the two leading axes flattened: row r = i · b + j. -/
theorem cast_abc_mc {a b c m : ℕ} (x : (⟨3, ![a, b, c]⟩ : Shape).Idx → α) (h : (⟨3, ![a, b, c]⟩ : Shape).ShapeCasts ⟨2, ![m, c]⟩)
    (i : Fin a) (j : Fin b) (e : Fin c) (r : Fin m) (hr : r.val = i.val * b + j.val) :
    shapeCast ⟨2, ![m, c]⟩ x h (ix2 r e) = x (ix3 i j e) :=
  shapeCast_apply x h _ _ (by
    rw [Shape.rowMajor_val_three, Shape.rowMajor_val_two]
    show (i.val * b + j.val) * c + e.val = r.val * c + e.val
    rw [hr])

/-- [m, c] → [a, b, c], the leading axis split: row r = i · b + j. -/
theorem cast_mc_abc {a b c m : ℕ} (x : (⟨2, ![m, c]⟩ : Shape).Idx → α) (h : (⟨2, ![m, c]⟩ : Shape).ShapeCasts ⟨3, ![a, b, c]⟩)
    (i : Fin a) (j : Fin b) (e : Fin c) (r : Fin m) (hr : r.val = i.val * b + j.val) :
    shapeCast ⟨3, ![a, b, c]⟩ x h (ix3 i j e) = x (ix2 r e) :=
  shapeCast_apply x h _ _ (by
    rw [Shape.rowMajor_val_three, Shape.rowMajor_val_two]
    show r.val * c + e.val = (i.val * b + j.val) * c + e.val
    rw [hr])

/-- [a, b, c, d] → [m, d], the three leading axes flattened: row r = (i · b + j) · c + k. -/
theorem cast_abcd_md {a b c d m : ℕ} (x : (⟨4, ![a, b, c, d]⟩ : Shape).Idx → α)
    (h : (⟨4, ![a, b, c, d]⟩ : Shape).ShapeCasts ⟨2, ![m, d]⟩)
    (i : Fin a) (j : Fin b) (k : Fin c) (e : Fin d) (r : Fin m) (hr : r.val = (i.val * b + j.val) * c + k.val) :
    shapeCast ⟨2, ![m, d]⟩ x h (ix2 r e) = x (ix4 i j k e) :=
  shapeCast_apply x h _ _ (by
    rw [Shape.rowMajor_val_four, Shape.rowMajor_val_two]
    show ((i.val * b + j.val) * c + k.val) * d + e.val = r.val * d + e.val
    rw [hr])

/-! ## Broadcasts read at coordinates

A broadcast reads the operand at the same coordinates, and at 0 on the operand's axes of extent one. -/

/-- [1, b, c] → [a, b, c]. -/
theorem bc_1bc_abc {a b c : ℕ} (x : (⟨3, ![1, b, c]⟩ : Shape).Idx → α) (h : (⟨3, ![1, b, c]⟩ : Shape).Broadcasts ⟨3, ![a, b, c]⟩)
    (i : Fin a) (j : Fin b) (e : Fin c) : broadcastTo ⟨3, ![a, b, c]⟩ x h (ix3 i j e) = x (ix3 (0 : Fin 1) j e) := by
  refine broadcastTo_apply x h (ix3 i j e) (ix3 (0 : Fin 1) j e) fun ax => ?_
  match ax with
  | ⟨0, _⟩ => rfl
  | ⟨1, _⟩ =>
    show j.val = if b = 1 then 0 else j.val
    split
    · have := j.isLt; omega
    · rfl
  | ⟨2, _⟩ =>
    show e.val = if c = 1 then 0 else e.val
    split
    · have := e.isLt; omega
    · rfl

/-- [a, 1, c] → [a, b, c]. -/
theorem bc_a1c_abc {a b c : ℕ} (x : (⟨3, ![a, 1, c]⟩ : Shape).Idx → α) (h : (⟨3, ![a, 1, c]⟩ : Shape).Broadcasts ⟨3, ![a, b, c]⟩)
    (i : Fin a) (j : Fin b) (e : Fin c) : broadcastTo ⟨3, ![a, b, c]⟩ x h (ix3 i j e) = x (ix3 i (0 : Fin 1) e) := by
  refine broadcastTo_apply x h (ix3 i j e) (ix3 i (0 : Fin 1) e) fun ax => ?_
  match ax with
  | ⟨0, _⟩ =>
    show i.val = if a = 1 then 0 else i.val
    split
    · have := i.isLt; omega
    · rfl
  | ⟨1, _⟩ => rfl
  | ⟨2, _⟩ =>
    show e.val = if c = 1 then 0 else e.val
    split
    · have := e.isLt; omega
    · rfl

/-- [a, 1, 1, d] → [a, b, 1, d]. -/
theorem bc_a11d_ab1d {a b d : ℕ} (x : (⟨4, ![a, 1, 1, d]⟩ : Shape).Idx → α)
    (h : (⟨4, ![a, 1, 1, d]⟩ : Shape).Broadcasts ⟨4, ![a, b, 1, d]⟩)
    (i : Fin a) (j : Fin b) (u : Fin 1) (e : Fin d) :
    broadcastTo ⟨4, ![a, b, 1, d]⟩ x h (ix4 i j u e) = x (ix4 i (0 : Fin 1) (0 : Fin 1) e) := by
  refine broadcastTo_apply x h (ix4 i j u e) (ix4 i (0 : Fin 1) (0 : Fin 1) e) fun ax => ?_
  match ax with
  | ⟨0, _⟩ =>
    show i.val = if a = 1 then 0 else i.val
    split
    · have := i.isLt; omega
    · rfl
  | ⟨1, _⟩ => rfl
  | ⟨2, _⟩ => rfl
  | ⟨3, _⟩ =>
    show e.val = if d = 1 then 0 else e.val
    split
    · have := e.isLt; omega
    · rfl

/-- [a, b, 1, d] → [a, b, c, d]. -/
theorem bc_ab1d_abcd {a b c d : ℕ} (x : (⟨4, ![a, b, 1, d]⟩ : Shape).Idx → α)
    (h : (⟨4, ![a, b, 1, d]⟩ : Shape).Broadcasts ⟨4, ![a, b, c, d]⟩)
    (i : Fin a) (j : Fin b) (k : Fin c) (e : Fin d) :
    broadcastTo ⟨4, ![a, b, c, d]⟩ x h (ix4 i j k e) = x (ix4 i j (0 : Fin 1) e) := by
  refine broadcastTo_apply x h (ix4 i j k e) (ix4 i j (0 : Fin 1) e) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ =>
    show e.val = if d = 1 then 0 else e.val
    split
    · have := e.isLt; omega
    · rfl

/-- [a, 1, c, d] → [a, b, c, d]. -/
theorem bc_a1cd_abcd {a b c d : ℕ} (x : (⟨4, ![a, 1, c, d]⟩ : Shape).Idx → α)
    (h : (⟨4, ![a, 1, c, d]⟩ : Shape).Broadcasts ⟨4, ![a, b, c, d]⟩)
    (i : Fin a) (j : Fin b) (k : Fin c) (e : Fin d) :
    broadcastTo ⟨4, ![a, b, c, d]⟩ x h (ix4 i j k e) = x (ix4 i (0 : Fin 1) k e) := by
  refine broadcastTo_apply x h (ix4 i j k e) (ix4 i (0 : Fin 1) k e) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show e.val = if d = 1 then 0 else e.val
    split
    · have := e.isLt; omega
    · rfl

/-- [1, 1, 1, d] → [a, b, c, d]. -/
theorem bc_111d_abcd {a b c d : ℕ} (x : (⟨4, ![1, 1, 1, d]⟩ : Shape).Idx → α)
    (h : (⟨4, ![1, 1, 1, d]⟩ : Shape).Broadcasts ⟨4, ![a, b, c, d]⟩)
    (i : Fin a) (j : Fin b) (k : Fin c) (e : Fin d) :
    broadcastTo ⟨4, ![a, b, c, d]⟩ x h (ix4 i j k e) = x (ix4 (0 : Fin 1) (0 : Fin 1) (0 : Fin 1) e) := by
  refine broadcastTo_apply x h (ix4 i j k e) (ix4 (0 : Fin 1) (0 : Fin 1) (0 : Fin 1) e) fun ax => ?_
  match ax with
  | ⟨0, _⟩ => rfl
  | ⟨1, _⟩ => rfl
  | ⟨2, _⟩ => rfl
  | ⟨3, _⟩ =>
    show e.val = if d = 1 then 0 else e.val
    split
    · have := e.isLt; omega
    · rfl

end Layout

/-! ## Rows of the flattened operands -/

/-- Row p · 8 + jj of the 64 (point of x, row of the chunk) pairs. -/
def row64 (p jj : Fin 8) : Fin 64 := ⟨p.val * 8 + jj.val, by have := p.isLt; have := jj.isLt; omega⟩
/-- Row p · 128 + k of the 1024 (point of x, point of x2) pairs. -/
def row1024 (p : Fin 8) (k : Fin 128) : Fin 1024 := ⟨p.val * 128 + k.val, by have := p.isLt; have := k.isLt; omega⟩
/-- Row (p · 8 + jj) · 128 + k of the 8192 (point of x, row of the chunk, point of x2) triples. -/
def row8192 (p jj : Fin 8) (k : Fin 128) : Fin 8192 :=
  ⟨(p.val * 8 + jj.val) * 128 + k.val, by have := p.isLt; have := jj.isLt; have := k.isLt; omega⟩

/-! ## The first layer's three products -/

/-- The product of the block of x with rows 0–15 of the first matrix, at (p, o). -/
theorem prodA_apply (v0 : Vec Ideal S1x8x16 .f32) (v4 : Vec Ideal S16x16 .f32) (p : Fin 8) (o : Fin 16) :
    matmul (F := Ideal) dot_S8x16_S16x16_S8x16_1_0_0_1_n_n none
        (truncf .bf16 (shapeCast S8x16 v0 shapeCasts_S1x8x16_S8x16) bitsLt_bf16_f32) (truncf .bf16 v4 bitsLt_bf16_f32)
        (constant (F := Ideal) S8x16 .f32 0x00000000#32) (ix2 p o)
      = ∑ c : Fin 16, v0 (ix3 0 p c) * v4 (ix2 c o) := by
  refine (mm8_apply _ _ p o).trans (Finset.sum_congr rfl fun c _ => ?_)
  refine congrArg₂ (· * ·) ?_ rfl
  exact shapeCast_1ab_ab_apply v0 shapeCasts_S1x8x16_S8x16 p c

/-- The product of the differences x1_jj − x_p, flattened to 64 rows, with rows 16–31 of the first matrix, put back on
    the axes (p, jj): at (p, jj, o). -/
theorem prodB_apply (v0 v40 : Vec Ideal S1x8x16 .f32) (v6 : Vec Ideal S16x16 .f32) (p jj : Fin 8) (o : Fin 16) :
    shapeCast S8x8x16
      (matmul (F := Ideal) dot_S64x16_S16x16_S64x16_1_0_0_1_n_n none
        (truncf .bf16
          (shapeCast S64x16
            (subf
              (broadcastTo S8x8x16
                (shapeCast S1x8x16 (shapeCast S8x16 v40 shapeCasts_S1x8x16_S8x16) shapeCasts_S8x16_S1x8x16)
                broadcasts_S1x8x16_S8x8x16)
              (broadcastTo S8x8x16
                (shapeCast S8x1x16 (shapeCast S8x16 v0 shapeCasts_S1x8x16_S8x16) shapeCasts_S8x16_S8x1x16)
                broadcasts_S8x1x16_S8x8x16))
            shapeCasts_S8x8x16_S64x16) bitsLt_bf16_f32)
        (truncf .bf16 v6 bitsLt_bf16_f32) (constant (F := Ideal) S64x16 .f32 0x00000000#32))
      shapeCasts_S64x16_S8x8x16 (ix3 p jj o)
    = ∑ c : Fin 16, (v40 (ix3 0 jj c) - v0 (ix3 0 p c)) * v6 (ix2 c o) := by
  refine (cast_mc_abc _ shapeCasts_S64x16_S8x8x16 p jj o (row64 p jj) rfl).trans ?_
  refine (mm64_apply _ _ (row64 p jj) o).trans (Finset.sum_congr rfl fun c _ => ?_)
  refine congrArg₂ (· * ·) ?_ rfl
  refine (truncf_apply (ψ := .bf16) _ bitsLt_bf16_f32 _).trans ?_
  refine (cast_abc_mc _ shapeCasts_S8x8x16_S64x16 p jj c (row64 p jj) rfl).trans ?_
  refine (subf_apply _ _ _).trans (congrArg₂ (· - ·) ?_ ?_)
  · refine (bc_1bc_abc _ broadcasts_S1x8x16_S8x8x16 p jj c).trans ?_
    refine (shapeCast_ab_1ab_apply _ shapeCasts_S8x16_S1x8x16 0 jj c).trans ?_
    exact shapeCast_1ab_ab_apply v40 shapeCasts_S1x8x16_S8x16 jj c
  · refine (bc_a1c_abc _ broadcasts_S8x1x16_S8x8x16 p jj c).trans ?_
    refine (cast_ab_a1b _ shapeCasts_S8x16_S8x1x16 p 0 c).trans ?_
    exact shapeCast_1ab_ab_apply v0 shapeCasts_S1x8x16_S8x16 p c

/-- The product of the differences x2_k − x_p, flattened to 1024 rows, with rows 32–47 of the first matrix, put back on
    the axes (p, k): at (p, k, o). -/
theorem prodC_apply (v0 : Vec Ideal S1x8x16 .f32) (v2 : Vec Ideal S1x128x16 .f32) (v8 : Vec Ideal S16x16 .f32)
    (p : Fin 8) (k : Fin 128) (o : Fin 16) :
    shapeCast S8x128x16
      (matmul (F := Ideal) dot_S1024x16_S16x16_S1024x16_1_0_0_1_n_n none
        (truncf .bf16
          (shapeCast S1024x16
            (subf
              (broadcastTo S8x128x16
                (shapeCast S1x128x16 (shapeCast S128x16 v2 shapeCasts_S1x128x16_S128x16) shapeCasts_S128x16_S1x128x16)
                broadcasts_S1x128x16_S8x128x16)
              (broadcastTo S8x128x16
                (shapeCast S8x1x16 (shapeCast S8x16 v0 shapeCasts_S1x8x16_S8x16) shapeCasts_S8x16_S8x1x16)
                broadcasts_S8x1x16_S8x128x16))
            shapeCasts_S8x128x16_S1024x16) bitsLt_bf16_f32)
        (truncf .bf16 v8 bitsLt_bf16_f32) (constant (F := Ideal) S1024x16 .f32 0x00000000#32))
      shapeCasts_S1024x16_S8x128x16 (ix3 p k o)
    = ∑ c : Fin 16, (v2 (ix3 0 k c) - v0 (ix3 0 p c)) * v8 (ix2 c o) := by
  refine (cast_mc_abc _ shapeCasts_S1024x16_S8x128x16 p k o (row1024 p k) rfl).trans ?_
  refine (mm1024_apply _ _ (row1024 p k) o).trans (Finset.sum_congr rfl fun c _ => ?_)
  refine congrArg₂ (· * ·) ?_ rfl
  refine (truncf_apply (ψ := .bf16) _ bitsLt_bf16_f32 _).trans ?_
  refine (cast_abc_mc _ shapeCasts_S8x128x16_S1024x16 p k c (row1024 p k) rfl).trans ?_
  refine (subf_apply _ _ _).trans (congrArg₂ (· - ·) ?_ ?_)
  · refine (bc_1bc_abc _ broadcasts_S1x128x16_S8x128x16 p k c).trans ?_
    refine (shapeCast_ab_1ab_apply _ shapeCasts_S128x16_S1x128x16 0 k c).trans ?_
    exact shapeCast_1ab_ab_apply v2 shapeCasts_S1x128x16_S128x16 k c
  · refine (bc_a1c_abc _ broadcasts_S8x1x16_S8x128x16 p k c).trans ?_
    refine (cast_ab_a1b _ shapeCasts_S8x16_S8x1x16 p 0 c).trans ?_
    exact shapeCast_1ab_ab_apply v0 shapeCasts_S1x8x16_S8x16 p c

/-! ## The hidden layer and the second layer -/

/-- The hidden layer at (p, jj, k, o): the three products, each broadcast over the axis it does not depend on, the bias
    and the relu. -/
theorem hidden_apply (A : FVec Ideal S8x16 .f32) (Hb : FVec Ideal S8x8x16 .f32) (Hc : FVec Ideal S8x128x16 .f32)
    (v12 : Vec Ideal S16 .f32) (p jj : Fin 8) (k : Fin 128) (o : Fin 16) :
    maximumf
      (addf
        (addf
          (broadcastTo S8x8x128x16
            (addf
              (broadcastTo S8x8x1x16 (shapeCast S8x1x1x16 A shapeCasts_S8x16_S8x1x1x16) broadcasts_S8x1x1x16_S8x8x1x16)
              (shapeCast S8x8x1x16 Hb shapeCasts_S8x8x16_S8x8x1x16))
            broadcasts_S8x8x1x16_S8x8x128x16)
          (broadcastTo S8x8x128x16 (shapeCast S8x1x128x16 Hc shapeCasts_S8x128x16_S8x1x128x16)
            broadcasts_S8x1x128x16_S8x8x128x16))
        (broadcastTo S8x8x128x16 (shapeCast S1x1x1x16 v12 shapeCasts_S16_S1x1x1x16) broadcasts_S1x1x1x16_S8x8x128x16))
      (broadcast S8x8x128x16 (Scalar.ofBits (F := Ideal) .f32 0x00000000#32)) (ix4 p jj k o)
    = max (((A (ix2 p o) + Hb (ix3 p jj o)) + Hc (ix3 p k o)) + v12 (ix1 o)) zeroWord := by
  refine (maximumf_apply _ _ _).trans (congrArg₂ max ?_ rfl)
  refine (addf_apply _ _ _).trans (congrArg₂ (· + ·) ?_ ?_)
  · refine (addf_apply _ _ _).trans (congrArg₂ (· + ·) ?_ ?_)
    · refine (bc_ab1d_abcd _ broadcasts_S8x8x1x16_S8x8x128x16 p jj k o).trans ?_
      refine (addf_apply _ _ _).trans (congrArg₂ (· + ·) ?_ ?_)
      · refine (bc_a11d_ab1d _ broadcasts_S8x1x1x16_S8x8x1x16 p jj 0 o).trans ?_
        exact cast_ab_a11b A shapeCasts_S8x16_S8x1x1x16 p 0 0 o
      · exact cast_abc_ab1c Hb shapeCasts_S8x8x16_S8x8x1x16 p jj 0 o
    · refine (bc_a1cd_abcd _ broadcasts_S8x1x128x16_S8x8x128x16 p jj k o).trans ?_
      exact cast_abc_a1bc Hc shapeCasts_S8x128x16_S8x1x128x16 p 0 k o
  · refine (bc_111d_abcd _ broadcasts_S1x1x1x16_S8x8x128x16 p jj k o).trans ?_
    exact cast_a_111a v12 shapeCasts_S16_S1x1x1x16 0 0 0 o

/-- The second layer on the hidden layer flattened to 8192 rows, with its bias and relu, reshaped to [8, 1024, 16]: at
    (p, r, q) with r = jj · 128 + k it reads row (p · 8 + jj) · 128 + k of the flattened hidden layer, which is the hidden
    layer at (p, jj, k). -/
theorem second_apply (H : FVec Ideal S8x8x128x16 .f32) (v10 : Vec Ideal S16x16 .f32) (v13 : Vec Ideal S16 .f32)
    (p jj : Fin 8) (k : Fin 128) (q : Fin 16) (r : Fin 1024) (hr : r.val = jj.val * 128 + k.val) :
    shapeCast S8x1024x16
      (maximumf
        (addf
          (matmul (F := Ideal) dot_S8192x16_S16x16_S8192x16_1_0_0_1_n_n none
            (truncf .bf16 (shapeCast S8192x16 H shapeCasts_S8x8x128x16_S8192x16) bitsLt_bf16_f32)
            (truncf .bf16 v10 bitsLt_bf16_f32) (constant (F := Ideal) S8192x16 .f32 0x00000000#32))
          (broadcastTo S8192x16 (shapeCast S1x16 v13 shapeCasts_S16_S1x16) broadcasts_S1x16_S8192x16))
        (broadcast S8192x16 (Scalar.ofBits (F := Ideal) .f32 0x00000000#32)))
      shapeCasts_S8192x16_S8x1024x16 (ix3 p r q)
    = max ((∑ o : Fin 16, H (ix4 p jj k o) * v10 (ix2 o q)) + v13 (ix1 q)) zeroWord := by
  have hR : (row8192 p jj k).val = p.val * 1024 + r.val := by
    show (p.val * 8 + jj.val) * 128 + k.val = p.val * 1024 + r.val
    omega
  refine (cast_mc_abc _ shapeCasts_S8192x16_S8x1024x16 p r q (row8192 p jj k) hR).trans ?_
  refine (maximumf_apply _ _ _).trans (congrArg₂ max ?_ rfl)
  refine (addf_apply _ _ _).trans (congrArg₂ (· + ·) ?_ ?_)
  · refine (mm8192_apply _ _ (row8192 p jj k) q).trans (Finset.sum_congr rfl fun o _ => ?_)
    refine congrArg₂ (· * ·) ?_ rfl
    refine (truncf_apply (ψ := .bf16) _ bitsLt_bf16_f32 _).trans ?_
    exact cast_abcd_md H shapeCasts_S8x8x128x16_S8192x16 p jj k o (row8192 p jj k) rfl
  · refine (broadcastTo_1b_ab_apply _ broadcasts_S1x16_S8192x16 (row8192 p jj k) q).trans ?_
    exact shapeCast_a_1a_apply v13 shapeCasts_S16_S1x16 0 q

/-! ## One chunk's tensor at an index -/

/-- The chunk's tensor of pair features at (p, jj · 128 + k, q) is the specification's pair feature of the point p of the
    block of x, the row jj of the chunk of x1 and the point k of x2. -/
theorem chunk_apply (v0 : Vec Ideal S1x8x16 .f32) (v2 : Vec Ideal S1x128x16 .f32) (v4 v6 v8 v10 : Vec Ideal S16x16 .f32)
    (v12 v13 : Vec Ideal S16 .f32) (v40 : Vec Ideal S1x8x16 .f32) (p jj : Fin 8) (k : Fin 128) (q : Fin 16) (r : Fin 1024)
    (hr : r.val = jj.val * 128 + k.val) :
    Cert.KernelIdeal.Gen.k0_pay4 (F := Ideal) v0 v2 v4 v6 v8 v10 v12 v13 v40 (ix3 p r q)
      = Cert.PairPool.pairFeature (fun c => v0 (ix3 0 p c)) (fun c => v40 (ix3 0 jj c)) (fun c => v2 (ix3 0 k c))
          (fun c o => v4 (ix2 c o)) (fun c o => v6 (ix2 c o)) (fun c o => v8 (ix2 c o)) (fun o t => v10 (ix2 o t))
          (fun o => v12 (ix1 o)) (fun t => v13 (ix1 t)) q := by
  unfold Gen.k0_pay4 pairFeature
  refine (second_apply _ v10 v13 p jj k q r hr).trans ?_
  refine congrArg₂ max (congrArg₂ (· + ·) (Finset.sum_congr rfl fun o _ => congrArg₂ (· * ·) ?_ rfl) rfl) rfl
  refine (hidden_apply _ _ _ v12 p jj k o).trans ?_
  refine congrArg₂ max (congrArg₂ (· + ·) (congrArg₂ (· + ·) (congrArg₂ (· + ·) ?_ ?_) ?_) rfl) rfl
  · exact prodA_apply v0 v4 p o
  · exact prodB_apply v0 v40 v6 p jj o
  · exact prodC_apply v0 v2 v8 p k o

end Cert.PairPool.Chunk

end
-- ==== Proof.KernelBlock.lean ====
/-
  The block one grid point stores, at the ideal instance, as pooled pair features of the blocks it was handed.

  Trip i's chunk tensor holds, at (p, r, q), the output channel q of the pair (8i + r / 128, r mod 128) at the block's
  point p. Folding each chunk's maximum into a value that starts at −∞, and each chunk's sum into a value that starts
  at 0, over the 16 trips gives the supremum and the sum over all 128 · 128 pairs. The stored block puts the first
  eight channels of the supremum beside the last eight channels of the sum times 2⁻¹⁴.
-/
import proofs.«171986_j43078521979326_2_alg».proof.Proof.Spec
import proofs.«171986_j43078521979326_2_alg».proof.Proof.Consts
import proofs.«171986_j43078521979326_2_alg».proof.Proof.Pool
import proofs.«171986_j43078521979326_2_alg».proof.Proof.KernelLoop
import proofs.«171986_j43078521979326_2_alg».proof.Proof.ChunkValue
import Idealize.ShloMosaic.Lib.ValueIdx
import Idealize.ShloMosaic.Lib.Pipeline.Value
import Idealize.ShloMosaic.Lib.ValueLayout
import Idealize.ShloMosaic.PureOps.Ideal.Laws

noncomputable section

namespace Cert.PairPool.KernelBlock

open Cert.KernelIdeal Cert.KernelIdeal.Gen Cert.PairPool Cert.PairPool.KernelLoop Cert.PairPool.Pool
open Idealize.ShloMosaic Idealize.ShloMosaic.TcCoe Idealize.ShloMosaic.ValueIdx Idealize.SL.Sem

/-- The loop makes sixteen trips. -/
theorem trips_eq : k0_t1_loop.trips = 16 := by decide +kernel

/-- A trip's number as a chunk number. -/
def chunkNo (k : Fin k0_t1_loop.trips) : Fin 16 := ⟨k.val, lt_of_lt_of_eq k.isLt trips_eq⟩

variable (x0 : Vec Ideal S1x8x16 .f32) (x1 x2 : Vec Ideal S1x128x16 .f32) (x3 : Vec Ideal S48x16 .f32)
  (x4 : Vec Ideal S16 .f32) (x5 : Vec Ideal S16x16 .f32) (x6 : Vec Ideal S16 .f32)

/-- The pair (j, k)'s output channel q at the block's point p, from the staged blocks. -/
def blockFeature (p : Fin 8) (j k : Fin 128) (q : Fin 16) : EReal :=
  pairFeature (fun c => x0 (ix3 (0 : Fin 1) p c)) (fun c => x1 (ix3 (0 : Fin 1) j c)) (fun c => x2 (ix3 (0 : Fin 1) k c))
    (fun c o => x3 (ix2 (rowA c) o)) (fun c o => x3 (ix2 (rowB c) o)) (fun c o => x3 (ix2 (rowC c) o))
    (fun o t => x5 (ix2 o t)) (fun o => x4 (ix1 o)) (fun t => x6 (ix1 t)) q

/-- Row jj of trip k's chunk is row 8k + jj of the staged x1. -/
theorem chunk_row (k : Fin k0_t1_loop.trips) (jj : Fin 8) (c : Fin 16) (j : Fin 128) (hj : j.val = 8 * k.val + jj.val) :
    chunk x1 k (ix3 (0 : Fin 1) jj c) = x1 (ix3 (0 : Fin 1) j c) := by
  unfold chunk
  show x1 _ = x1 _
  refine congrArg x1 (funext fun a => Fin.ext ?_)
  have e := k0_off1_eq k
  match a with
  | ⟨0, _⟩ => show (k0_off1 k) 0 + 1 * 0 = 0; rw [e]; rfl
  | ⟨1, _⟩ => show (k0_off1 k) 1 + 1 * jj.val = j.val; rw [e, hj]; show 8 * k.val + 1 * jj.val = _; omega
  | ⟨2, _⟩ => show (k0_off1 k) 2 + 1 * c.val = c.val; rw [e]; show 0 + 1 * c.val = c.val; omega

theorem blockA_apply (c o : Fin 16) : blockA x3 (ix2 c o) = x3 (ix2 (rowA c) o) := by
  unfold blockA
  show x3 _ = x3 _
  refine congrArg x3 (funext fun a => Fin.ext ?_)
  match a with
  | ⟨0, _⟩ => show 0 + 1 * c.val = c.val; omega
  | ⟨1, _⟩ => show 0 + 1 * o.val = o.val; omega

theorem blockB_apply (c o : Fin 16) : blockB x3 (ix2 c o) = x3 (ix2 (rowB c) o) := by
  unfold blockB
  show x3 _ = x3 _
  refine congrArg x3 (funext fun a => Fin.ext ?_)
  match a with
  | ⟨0, _⟩ => show 16 + 1 * c.val = 16 + c.val; omega
  | ⟨1, _⟩ => show 0 + 1 * o.val = o.val; omega

theorem blockC_apply (c o : Fin 16) : blockC x3 (ix2 c o) = x3 (ix2 (rowC c) o) := by
  unfold blockC
  show x3 _ = x3 _
  refine congrArg x3 (funext fun a => Fin.ext ?_)
  match a with
  | ⟨0, _⟩ => show 32 + 1 * c.val = 32 + c.val; omega
  | ⟨1, _⟩ => show 0 + 1 * o.val = o.val; omega

/-- The reduced index (p, q) with r put back on the reduced middle axis is (p, r, q). -/
theorem lift_mid (p : Fin 8) (q : Fin 16) (r : Fin 1024) :
    reduces_S8x1024x16_S8x16.lift (ix2 p q) r = ix3 p r q :=
  funext fun a => match a with
    | ⟨0, _⟩ => rfl
    | ⟨1, _⟩ => rfl
    | ⟨2, _⟩ => rfl

section Payloads

variable (v0 : Vec Ideal S1x8x16 .f32) (v2 : Vec Ideal S1x128x16 .f32) (v4 v6 v8 v10 : Vec Ideal S16x16 .f32)
  (v12 v13 : Vec Ideal S16 .f32) (v40 : Vec Ideal S1x8x16 .f32)

/-- One trip's new maximum at (p, q): the carried one joined with the supremum of the chunk's tensor over its pairs. -/
theorem pay5_apply (acc : FVec Ideal S8x16 .f32) (p : Fin 8) (q : Fin 16) :
    k0_pay5 (F := Ideal) v0 v2 v4 v6 v8 v10 v12 v13 acc v40 (ix2 p q)
      = acc (ix2 p q) ⊔ Finset.univ.sup fun r : Fin 1024 => k0_pay4 (F := Ideal) v0 v2 v4 v6 v8 v10 v12 v13 v40 (ix3 p r q) := by
  unfold k0_pay5
  refine congrArg (max (acc (ix2 p q))) ?_
  refine (Ideal.multiReduction_maximumf_single _ _ _ _ _ (ix2 p q)).trans ?_
  rw [fold_max_eq_sup]
  show Ideal.ofBits .f32 0xFF800000#32 ⊔ _ = _
  rw [Consts.ofBits_negInf, bot_sup_eq]
  refine Finset.sup_congr rfl fun r _ => ?_
  exact congrArg (k0_pay4 (F := Ideal) v0 v2 v4 v6 v8 v10 v12 v13 v40) (lift_mid p q r)

/-- One trip's new sum at (p, q): the carried one plus the sum of the chunk's tensor over its pairs. -/
theorem pay6_apply (acc : FVec Ideal S8x16 .f32) (p : Fin 8) (q : Fin 16) :
    k0_pay6 (F := Ideal) v0 v2 v4 v6 v8 v10 v12 v13 acc v40 (ix2 p q)
      = acc (ix2 p q) + ∑ r : Fin 1024, k0_pay4 (F := Ideal) v0 v2 v4 v6 v8 v10 v12 v13 v40 (ix3 p r q) := by
  unfold k0_pay6
  refine congrArg (acc (ix2 p q) + ·) ?_
  refine (Ideal.multiReduction_add_single _ _ _ _ _ (ix2 p q)).trans ?_
  refine Finset.sum_congr rfl fun r _ => ?_
  exact congrArg (k0_pay4 (F := Ideal) v0 v2 v4 v6 v8 v10 v12 v13 v40) (lift_mid p q r)

end Payloads

section Carried

/-- Trip k's chunk tensor at (p, r, q) is the feature of the pair that chunk k and position r name. -/
theorem chunk_feature (k : Fin k0_t1_loop.trips) (p : Fin 8) (r : Fin 1024) (q : Fin 16) :
    k0_pay4 (F := Ideal) x0 x2 (blockA x3) (blockB x3) (blockC x3) x5 x4 x6 (chunk x1 k) (ix3 p r q)
      = blockFeature x0 x1 x2 x3 x4 x5 x6 p (pairOf (chunkNo k, r)).1 (pairOf (chunkNo k, r)).2 q := by
  have hr : r.val = (⟨r.val / 128, by have := r.isLt; omega⟩ : Fin 8).val * 128
      + (⟨r.val % 128, Nat.mod_lt _ (by norm_num)⟩ : Fin 128).val := by
    show r.val = r.val / 128 * 128 + r.val % 128; omega
  rw [Cert.PairPool.Chunk.chunk_apply x0 x2 (blockA x3) (blockB x3) (blockC x3) x5 x4 x6 (chunk x1 k) p ⟨r.val / 128, by have := r.isLt; omega⟩ ⟨r.val % 128, Nat.mod_lt _ (by norm_num)⟩ q r hr]
  have e1 : (fun c => chunk x1 k (ix3 (0 : Fin 1) (⟨r.val / 128, by have := r.isLt; omega⟩ : Fin 8) c))
      = fun c => x1 (ix3 (0 : Fin 1) (pairOf (chunkNo k, r)).1 c) :=
    funext fun c => chunk_row x1 k _ c _ rfl
  have eA : (fun c o => blockA x3 (ix2 c o)) = fun c o => x3 (ix2 (rowA c) o) :=
    funext fun c => funext fun o => blockA_apply x3 c o
  have eB : (fun c o => blockB x3 (ix2 c o)) = fun c o => x3 (ix2 (rowB c) o) :=
    funext fun c => funext fun o => blockB_apply x3 c o
  have eC : (fun c o => blockC x3 (ix2 c o)) = fun c o => x3 (ix2 (rowC c) o) :=
    funext fun c => funext fun o => blockC_apply x3 c o
  rw [e1, eA, eB, eC]
  rfl

/-- Chunk i's supremum and sum of the pair features at (p, q); past the last chunk, the neutral values. -/
def chunkSup (i : ℕ) (p : Fin 8) (q : Fin 16) : EReal :=
  if h : i < 16 then Finset.univ.sup fun r : Fin 1024 =>
    blockFeature x0 x1 x2 x3 x4 x5 x6 p (pairOf ((⟨i, h⟩ : Fin 16), r)).1 (pairOf ((⟨i, h⟩ : Fin 16), r)).2 q else ⊥
def chunkSum (i : ℕ) (p : Fin 8) (q : Fin 16) : EReal :=
  if h : i < 16 then ∑ r : Fin 1024,
    blockFeature x0 x1 x2 x3 x4 x5 x6 p (pairOf ((⟨i, h⟩ : Fin 16), r)).1 (pairOf ((⟨i, h⟩ : Fin 16), r)).2 q else 0

theorem carried_fst_step (n : ℕ) (p : Fin 8) (q : Fin 16) :
    (carried x0 x2 (blockA x3) (blockB x3) (blockC x3) x5 x4 x6 x1 (n + 1)).1 (ix2 p q)
      = (carried x0 x2 (blockA x3) (blockB x3) (blockC x3) x5 x4 x6 x1 n).1 (ix2 p q) ⊔ chunkSup x0 x1 x2 x3 x4 x5 x6 n p q := by
  show (step x0 x2 (blockA x3) (blockB x3) (blockC x3) x5 x4 x6 x1 n (carried x0 x2 (blockA x3) (blockB x3) (blockC x3) x5 x4 x6 x1 n)).1 (ix2 p q) = _
  unfold step chunkSup
  by_cases h : n < k0_t1_loop.trips
  · have h16 : n < 16 := lt_of_lt_of_eq h trips_eq
    rw [dif_pos h, dif_pos h16]
    show k0_pay5 (F := Ideal) x0 x2 (blockA x3) (blockB x3) (blockC x3) x5 x4 x6 (carried x0 x2 (blockA x3) (blockB x3) (blockC x3) x5 x4 x6 x1 n).1 (chunk x1 ⟨n, h⟩) (ix2 p q) = _
    rw [pay5_apply]
    refine congrArg (_ ⊔ ·) (Finset.sup_congr rfl fun r _ => ?_)
    exact chunk_feature x0 x1 x2 x3 x4 x5 x6 ⟨n, h⟩ p r q
  · have h16 : ¬ n < 16 := fun h' => h (lt_of_lt_of_eq h' trips_eq.symm)
    rw [dif_neg h, dif_neg h16, sup_bot_eq]

theorem carried_snd_step (n : ℕ) (p : Fin 8) (q : Fin 16) :
    (carried x0 x2 (blockA x3) (blockB x3) (blockC x3) x5 x4 x6 x1 (n + 1)).2 (ix2 p q)
      = (carried x0 x2 (blockA x3) (blockB x3) (blockC x3) x5 x4 x6 x1 n).2 (ix2 p q) + chunkSum x0 x1 x2 x3 x4 x5 x6 n p q := by
  show (step x0 x2 (blockA x3) (blockB x3) (blockC x3) x5 x4 x6 x1 n (carried x0 x2 (blockA x3) (blockB x3) (blockC x3) x5 x4 x6 x1 n)).2 (ix2 p q) = _
  unfold step chunkSum
  by_cases h : n < k0_t1_loop.trips
  · have h16 : n < 16 := lt_of_lt_of_eq h trips_eq
    rw [dif_pos h, dif_pos h16]
    show k0_pay6 (F := Ideal) x0 x2 (blockA x3) (blockB x3) (blockC x3) x5 x4 x6 (carried x0 x2 (blockA x3) (blockB x3) (blockC x3) x5 x4 x6 x1 n).2 (chunk x1 ⟨n, h⟩) (ix2 p q) = _
    rw [pay6_apply]
    refine congrArg (_ + ·) (Finset.sum_congr rfl fun r _ => ?_)
    exact chunk_feature x0 x1 x2 x3 x4 x5 x6 ⟨n, h⟩ p r q
  · have h16 : ¬ n < 16 := fun h' => h (lt_of_lt_of_eq h' trips_eq.symm)
    rw [dif_neg h, dif_neg h16, add_zero]

/-- After all the trips the carried maximum at (p, q) is the supremum of the features over all pairs. -/
theorem carried_fst_all (p : Fin 8) (q : Fin 16) :
    (carried x0 x2 (blockA x3) (blockB x3) (blockC x3) x5 x4 x6 x1 k0_t1_loop.trips).1 (ix2 p q)
      = Finset.univ.sup fun jk : Fin 128 × Fin 128 => blockFeature x0 x1 x2 x3 x4 x5 x6 p jk.1 jk.2 q := by
  rw [trips_eq]
  have h0 : (carried x0 x2 (blockA x3) (blockB x3) (blockC x3) x5 x4 x6 x1 0).1 (ix2 p q) = ⊥ := by
    show k0_pay2 (F := Ideal) (ix2 p q) = ⊥
    exact Consts.ofBits_negInf
  rw [run_sup (fun i => chunkSup x0 x1 x2 x3 x4 x5 x6 i p q) (fun n => (carried x0 x2 (blockA x3) (blockB x3) (blockC x3) x5 x4 x6 x1 n).1 (ix2 p q)) h0
      (fun k => carried_fst_step x0 x1 x2 x3 x4 x5 x6 k p q) 16, sup_range]
  refine Eq.trans ?_ (sup_chunks fun j k => blockFeature x0 x1 x2 x3 x4 x5 x6 p j k q)
  refine Finset.sup_congr rfl fun i _ => ?_
  unfold chunkSup
  rw [dif_pos i.isLt]

/-- After all the trips the carried sum at (p, q) is the sum of the features over all pairs. -/
theorem carried_snd_all (p : Fin 8) (q : Fin 16) :
    (carried x0 x2 (blockA x3) (blockB x3) (blockC x3) x5 x4 x6 x1 k0_t1_loop.trips).2 (ix2 p q)
      = ∑ jk : Fin 128 × Fin 128, blockFeature x0 x1 x2 x3 x4 x5 x6 p jk.1 jk.2 q := by
  rw [trips_eq]
  have h0 : (carried x0 x2 (blockA x3) (blockB x3) (blockC x3) x5 x4 x6 x1 0).2 (ix2 p q) = 0 := by
    show k0_pay3 (F := Ideal) (ix2 p q) = 0
    exact Ideal.ofBits_zero_f32
  rw [run_sum (fun i => chunkSum x0 x1 x2 x3 x4 x5 x6 i p q) (fun n => (carried x0 x2 (blockA x3) (blockB x3) (blockC x3) x5 x4 x6 x1 n).2 (ix2 p q)) h0
      (fun k => carried_snd_step x0 x1 x2 x3 x4 x5 x6 k p q) 16, Finset.sum_range]
  refine Eq.trans ?_ (sum_chunks fun j k => blockFeature x0 x1 x2 x3 x4 x5 x6 p j k q)
  refine Finset.sum_congr rfl fun i _ => ?_
  unfold chunkSum
  rw [dif_pos i.isLt]

/-- The block the body stores, at (0, p, q): for a channel q < 8 the supremum of the pair features over all pairs,
    for q ≥ 8 their sum times 2⁻¹⁴. -/
theorem out_apply (c : Dev nD) (i : grid0.Coords) (arg2 : Memref sig .tc .vmem S1x8x16 .f32) (harg2 : arg2.IsWhole) (arg3 : Memref sig .tc .vmem S1x128x16 .f32) (harg3 : arg3.IsWhole) (arg4 : Memref sig .tc .vmem S1x128x16 .f32) (harg4 : arg4.IsWhole) (arg5 : Memref sig .tc .vmem S48x16 .f32) (harg5 : arg5.IsWhole) (arg6 : Memref sig .tc .vmem S16 .f32) (harg6 : arg6.IsWhole) (arg7 : Memref sig .tc .vmem S16x16 .f32) (harg7 : arg7.IsWhole) (arg8 : Memref sig .tc .vmem S16 .f32) (harg8 : arg8.IsWhole) (arg9 : Memref sig .tc .vmem S1x8x16 .f32) (harg9 : arg9.IsWhole) (p : Fin 8) (q : Fin 16) :
    out0_A_7 (F := Ideal) c i arg2 harg2 arg3 harg3 arg4 harg4 arg5 harg5 arg6 harg6 arg7 harg7 arg8 harg8 arg9 harg9 x0 x1 x2 x3 x4 x5 x6 (ix3 (0 : Fin 1) p q)
      = if q.val < 8 then Finset.univ.sup (fun jk : Fin 128 × Fin 128 => blockFeature x0 x1 x2 x3 x4 x5 x6 p jk.1 jk.2 q)
        else (∑ jk : Fin 128 × Fin 128, blockFeature x0 x1 x2 x3 x4 x5 x6 p jk.1 jk.2 q) * Ideal.ofBits .f32 0x38800000#32 := by
  rw [KernelLoop.out_eq]
  unfold k0_pay1
  refine (shapeCast_ab_1ab_apply _ _ (0 : Fin 1) p q).trans ?_
  by_cases hq : q.val < 8
  · rw [if_pos hq]
    refine (concatenate_pair_apply_left (t := S8x16) (s₁ := S8x8) (s₂ := S8x8) (1 : Fin 2) _ _ _ (ix2 p q) rfl (ix2 p (⟨q.val, hq⟩ : Fin 8))
      (fun b => match b with | ⟨0, _⟩ => rfl | ⟨1, _⟩ => rfl)).trans ?_
    unfold k0_pay7
    refine (extractStridedSlice_apply _ _ _ (ix2 p (⟨q.val, hq⟩ : Fin 8)) (ix2 p q)
      (fun a => match a with
        | ⟨0, _⟩ => by show p.val = 0 + p.val; omega
        | ⟨1, _⟩ => by show q.val = 0 + q.val; omega)).trans ?_
    exact carried_fst_all x0 x1 x2 x3 x4 x5 x6 p q
  · rw [if_neg hq]
    have hq8 : 8 ≤ q.val := Nat.le_of_not_lt hq
    have hq16 : q.val < 16 := q.isLt
    refine (concatenate_pair_apply_right (t := S8x16) (s₁ := S8x8) (s₂ := S8x8) (1 : Fin 2) _ _ _ (ix2 p q) rfl rfl (ix2 p (⟨q.val - 8, by omega⟩ : Fin 8))
      (fun b hb => match b, hb with
        | ⟨0, _⟩, _ => rfl
        | ⟨1, _⟩, hb => (hb (Fin.ext rfl)).elim)
      (by show (q.val - 8) + 8 = q.val; omega)).trans ?_
    unfold k0_pay8
    refine (extractStridedSlice_apply _ _ _ (ix2 p (⟨q.val - 8, by omega⟩ : Fin 8)) (ix2 p q)
      (fun a => match a with
        | ⟨0, _⟩ => by show p.val = 0 + p.val; omega
        | ⟨1, _⟩ => by show q.val = 8 + (q.val - 8); omega)).trans ?_
    show (carried x0 x2 (blockA x3) (blockB x3) (blockC x3) x5 x4 x6 x1 k0_t1_loop.trips).2 (ix2 p q) * Ideal.ofBits .f32 0x38800000#32 = _
    rw [carried_snd_all]

end Carried

end Cert.PairPool.KernelBlock

end
-- ==== Proof.KernelArray.lean ====
/-
  From what one grid point stores to what the whole output array holds after the run.

  The grid has 2 · 32 points. Point (b, nb) is handed block (b, nb) of x — eight consecutive points of batch b —, all
  128 points of batch b of x1 and of x2, and the weights whole; it stores block (b, nb) of the result. A block's element
  sits in its array at block index times block size plus the coordinate inside the block, on every axis. So what the
  point computes from its blocks is the specification's value at the array index of the element it stores, and the 64
  blocks tile the result array: the array after the run is the specification at every index.
-/
import proofs.«171986_j43078521979326_2_alg».proof.Proof.Gen.KernelIdeal.Value
import proofs.«171986_j43078521979326_2_alg».proof.Proof.Spec
import proofs.«171986_j43078521979326_2_alg».proof.Proof.Consts
import proofs.«171986_j43078521979326_2_alg».proof.Proof.KernelBlock
import Idealize.ShloMosaic.Lib.Pipeline.Value
import Idealize.ShloMosaic.Lib.ValueIdx

noncomputable section

namespace Cert.PairPool.KernelArray

open Cert.KernelIdeal Cert.KernelIdeal.Gen Cert.PairPool Cert.PairPool.KernelBlock Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-! ## The index maps, decided once over the grid -/

/-- Where each window's block sits, relative to the output's: x moves with the output; x1 and x2 follow the batch
    coordinate only; the weights stay; the output's block indices stay in their ranges. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) ≤ 1 ∧ win0_7.index t (1 : Fin 3) ≤ 31 ∧ win0_7.index t (2 : Fin 3) = 0 :=
  (by decide +kernel : ∀ t : Fin grid0.N, _)

/-- Every block of the result array is some point's. -/
theorem idx_onto : ∀ (q0 : Fin 2) (q1 : Fin 32), ∃ t : Fin cfg0.N, win0_7.index t = ![q0.val, q1.val, 0] :=
  (by decide +kernel : ∀ (q0 : Fin 2) (q1 : Fin 32), ∃ t : Fin grid0.N, win0_7.index t = ![q0.val, q1.val, 0])

/-! ## Each input block, read where the output's block says -/

/-- Point t's block of x: batch and point coordinates follow the output's block. -/
theorem blk0_at (c : Dev nD) (t : Fin cfg0.N) (b : Fin 2) (n : Fin 256) (p : Fin 8) (cc : Fin 16)
    (hb : b.val = win0_7.index t (0 : Fin 3)) (hn : n.val = win0_7.index t (1 : Fin 3) * 8 + p.val) :
    (iblk m c 0 t : Vec Ideal S1x8x16 .f32) (ix3 (0 : Fin 1) p cc) = V m c main_arg0 (ix3 b n cc) := by
  obtain ⟨e00, e01, e02, -⟩ := idx_facts t
  show V m c main_arg0 (((cfg0.win 0).blk t).view.emb (ix3 (0 : Fin 1) p cc)) = V m c main_arg0 (ix3 b n cc)
  congr 1
  funext a
  apply Fin.ext
  match a with
  | ⟨0, _⟩ => show win0_0.index t (0 : Fin 3) * 1 + 1 * 0 = b.val; omega
  | ⟨1, _⟩ => show win0_0.index t (1 : Fin 3) * 8 + 1 * p.val = n.val; omega
  | ⟨2, _⟩ => show win0_0.index t (2 : Fin 3) * 16 + 1 * cc.val = cc.val; omega

/-- Point t's block of x1: all 128 points of the output's batch. -/
theorem blk1_at (c : Dev nD) (t : Fin cfg0.N) (b : Fin 2) (j : Fin 128) (cc : Fin 16)
    (hb : b.val = win0_7.index t (0 : Fin 3)) :
    (iblk m c 1 t : Vec Ideal S1x128x16 .f32) (ix3 (0 : Fin 1) j cc) = V m c main_arg1 (ix3 b j cc) := by
  obtain ⟨-, -, -, e10, e11, e12, -⟩ := idx_facts t
  show V m c main_arg1 (((cfg0.win 1).blk t).view.emb (ix3 (0 : Fin 1) j cc)) = V m c main_arg1 (ix3 b j cc)
  congr 1
  funext a
  apply Fin.ext
  match a with
  | ⟨0, _⟩ => show win0_1.index t (0 : Fin 3) * 1 + 1 * 0 = b.val; omega
  | ⟨1, _⟩ => show win0_1.index t (1 : Fin 3) * 128 + 1 * j.val = j.val; omega
  | ⟨2, _⟩ => show win0_1.index t (2 : Fin 3) * 16 + 1 * cc.val = cc.val; omega

/-- Point t's block of x2: all 128 points of the output's batch. -/
theorem blk2_at (c : Dev nD) (t : Fin cfg0.N) (b : Fin 2) (k : Fin 128) (cc : Fin 16)
    (hb : b.val = win0_7.index t (0 : Fin 3)) :
    (iblk m c 2 t : Vec Ideal S1x128x16 .f32) (ix3 (0 : Fin 1) k cc) = V m c main_arg2 (ix3 b k cc) := by
  obtain ⟨-, -, -, -, -, -, e20, e21, e22, -⟩ := idx_facts t
  show V m c main_arg2 (((cfg0.win 2).blk t).view.emb (ix3 (0 : Fin 1) k cc)) = V m c main_arg2 (ix3 b k cc)
  congr 1
  funext a
  apply Fin.ext
  match a with
  | ⟨0, _⟩ => show win0_2.index t (0 : Fin 3) * 1 + 1 * 0 = b.val; omega
  | ⟨1, _⟩ => show win0_2.index t (1 : Fin 3) * 128 + 1 * k.val = k.val; omega
  | ⟨2, _⟩ => show win0_2.index t (2 : Fin 3) * 16 + 1 * cc.val = cc.val; omega

/-- The first layer's matrix is handed whole. -/
theorem blk3_at (c : Dev nD) (t : Fin cfg0.N) (r : Fin 48) (o : Fin 16) :
    (iblk m c 3 t : Vec Ideal S48x16 .f32) (ix2 r o) = V m c main_arg3 (ix2 r o) := by
  obtain ⟨-, -, -, -, -, -, -, -, -, e30, e31, -⟩ := idx_facts t
  show V m c main_arg3 (((cfg0.win 3).blk t).view.emb (ix2 r o)) = V m c main_arg3 (ix2 r o)
  congr 1
  funext a
  apply Fin.ext
  match a with
  | ⟨0, _⟩ => show win0_3.index t (0 : Fin 2) * 48 + 1 * r.val = r.val; omega
  | ⟨1, _⟩ => show win0_3.index t (1 : Fin 2) * 16 + 1 * o.val = o.val; omega

/-- The first layer's bias is handed whole. -/
theorem blk4_at (c : Dev nD) (t : Fin cfg0.N) (o : Fin 16) :
    (iblk m c 4 t : Vec Ideal S16 .f32) (ix1 o) = V m c main_arg4 (ix1 o) := by
  obtain ⟨-, -, -, -, -, -, -, -, -, -, -, e40, -⟩ := idx_facts t
  show V m c main_arg4 (((cfg0.win 4).blk t).view.emb (ix1 o)) = V m c main_arg4 (ix1 o)
  congr 1
  funext a
  apply Fin.ext
  match a with
  | ⟨0, _⟩ => show win0_4.index t (0 : Fin 1) * 16 + 1 * o.val = o.val; omega

/-- The second layer's matrix is handed whole. -/
theorem blk5_at (c : Dev nD) (t : Fin cfg0.N) (o q : Fin 16) :
    (iblk m c 5 t : Vec Ideal S16x16 .f32) (ix2 o q) = V m c main_arg5 (ix2 o q) := by
  obtain ⟨-, -, -, -, -, -, -, -, -, -, -, -, e50, e51, -⟩ := idx_facts t
  show V m c main_arg5 (((cfg0.win 5).blk t).view.emb (ix2 o q)) = V m c main_arg5 (ix2 o q)
  congr 1
  funext a
  apply Fin.ext
  match a with
  | ⟨0, _⟩ => show win0_5.index t (0 : Fin 2) * 16 + 1 * o.val = o.val; omega
  | ⟨1, _⟩ => show win0_5.index t (1 : Fin 2) * 16 + 1 * q.val = q.val; omega

/-- The second layer's bias is handed whole. -/
theorem blk6_at (c : Dev nD) (t : Fin cfg0.N) (q : Fin 16) :
    (iblk m c 6 t : Vec Ideal S16 .f32) (ix1 q) = V m c main_arg6 (ix1 q) := by
  obtain ⟨-, -, -, -, -, -, -, -, -, -, -, -, -, -, e60, -⟩ := idx_facts t
  show V m c main_arg6 (((cfg0.win 6).blk t).view.emb (ix1 q)) = V m c main_arg6 (ix1 q)
  congr 1
  funext a
  apply Fin.ext
  match a with
  | ⟨0, _⟩ => show win0_6.index t (0 : Fin 1) * 16 + 1 * q.val = q.val; omega

/-! ## What a point computes from its blocks is the specification at the element it stores -/

/-- If the blocks read the arrays at batch b — x at point n, x1 and x2 at every point — and the weights are the arrays',
    the block's pooled value at row p is the specification at (b, n, q). -/
theorem pooled_of_blocks (A0 : Arr3 2 256 16) (A1 A2 : Arr3 2 128 16) (A3 : Arr2 48 16) (A4 : Arr1 16) (A5 : Arr2 16 16)
    (A6 : Arr1 16) (X0 : Vec Ideal S1x8x16 .f32) (X1 X2 : Vec Ideal S1x128x16 .f32) (X3 : Vec Ideal S48x16 .f32)
    (X4 : Vec Ideal S16 .f32) (X5 : Vec Ideal S16x16 .f32) (X6 : Vec Ideal S16 .f32)
    (b : Fin 2) (n : Fin 256) (p : Fin 8) (q : Fin 16)
    (h0 : ∀ cc : Fin 16, X0 (ix3 (0 : Fin 1) p cc) = A0 (ix3 b n cc))
    (h1 : ∀ (j : Fin 128) (cc : Fin 16), X1 (ix3 (0 : Fin 1) j cc) = A1 (ix3 b j cc))
    (h2 : ∀ (k : Fin 128) (cc : Fin 16), X2 (ix3 (0 : Fin 1) k cc) = A2 (ix3 b k cc))
    (h3 : ∀ (r : Fin 48) (o : Fin 16), X3 (ix2 r o) = A3 (ix2 r o))
    (h4 : ∀ o : Fin 16, X4 (ix1 o) = A4 (ix1 o))
    (h5 : ∀ o q' : Fin 16, X5 (ix2 o q') = A5 (ix2 o q'))
    (h6 : ∀ q' : Fin 16, X6 (ix1 q') = A6 (ix1 q')) :
    (if q.val < 8 then Finset.univ.sup (fun jk : Fin 128 × Fin 128 => blockFeature X0 X1 X2 X3 X4 X5 X6 p jk.1 jk.2 q)
      else (∑ jk : Fin 128 × Fin 128, blockFeature X0 X1 X2 X3 X4 X5 X6 p jk.1 jk.2 q) * Ideal.ofBits .f32 0x38800000#32)
      = pooled A0 A1 A2 A3 A4 A5 A6 (ix3 b n q) := by
  have hf : ∀ j k : Fin 128, blockFeature X0 X1 X2 X3 X4 X5 X6 p j k q = feature A0 A1 A2 A3 A4 A5 A6 b n j k q := by
    intro j k
    unfold blockFeature feature
    simp only [h0, h1, h2, h3, h4, h5, h6]
  simp only [hf]
  rfl

/-- WHAT POINT t STORES at the element (0, p, q) of its block is the specification at that element's place in the
    array. -/
theorem stored_at (c : Dev nD) (t : Fin cfg0.N) (y : S1x8x16.Idx) :
    out0_A_7 (F := Ideal) c (grid0.coords t) (ms0_0 t) (hs0_0 t) (ms0_1 t) (hs0_1 t) (ms0_2 t) (hs0_2 t) (ms0_3 t)
        (hs0_3 t) (ms0_4 t) (hs0_4 t) (ms0_5 t) (hs0_5 t) (ms0_6 t) (hs0_6 t) (ms0_7 t) (hs0_7 t) (iblk m c 0 t)
        (iblk m c 1 t) (iblk m c 2 t) (iblk m c 3 t) (iblk m c 4 t) (iblk m c 5 t) (iblk m c 6 t) y
      = pooled (V m c main_arg0) (V m c main_arg1) (V m c main_arg2) (V m c main_arg3) (V m c main_arg4)
          (V m c main_arg5) (V m c main_arg6) (((cfg0.win 7).blk t).view.emb y) := by
  obtain ⟨u, p, q, rfl⟩ : ∃ (u : Fin 1) (p : Fin 8) (q : Fin 16), y = ix3 u p q := ⟨y 0, y 1, y 2, eq_ix3 y⟩
  obtain rfl : u = 0 := Subsingleton.elim _ _
  obtain ⟨-, -, -, -, -, -, -, -, -, -, -, -, -, -, -, e70, e71, e72⟩ := idx_facts t
  have hb : win0_7.index t (0 : Fin 3) < 2 := by omega
  have hn : win0_7.index t (1 : Fin 3) * 8 + p.val < 256 := by have := p.isLt; omega
  refine (out_apply (iblk m c 0 t) (iblk m c 1 t) (iblk m c 2 t) (iblk m c 3 t) (iblk m c 4 t) (iblk m c 5 t)
    (iblk m c 6 t) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) p q).trans ?_
  refine (pooled_of_blocks (V m c main_arg0) (V m c main_arg1) (V m c main_arg2) (V m c main_arg3) (V m c main_arg4)
    (V m c main_arg5) (V m c main_arg6) (iblk m c 0 t) (iblk m c 1 t) (iblk m c 2 t) (iblk m c 3 t) (iblk m c 4 t)
    (iblk m c 5 t) (iblk m c 6 t) ⟨win0_7.index t (0 : Fin 3), hb⟩ ⟨win0_7.index t (1 : Fin 3) * 8 + p.val, hn⟩ p q
    (fun cc => blk0_at m c t _ _ p cc rfl rfl) (fun j cc => blk1_at m c t _ j cc rfl)
    (fun k cc => blk2_at m c t _ k cc rfl) (fun r o => blk3_at m c t r o) (fun o => blk4_at m c t o)
    (fun o q' => blk5_at m c t o q') (fun q' => blk6_at m c t q')).trans ?_
  congr 1
  funext a
  apply Fin.ext
  match a with
  | ⟨0, _⟩ => show win0_7.index t (0 : Fin 3) = win0_7.index t (0 : Fin 3) * 1 + 1 * 0; omega
  | ⟨1, _⟩ => show win0_7.index t (1 : Fin 3) * 8 + p.val = win0_7.index t (1 : Fin 3) * 8 + 1 * p.val; omega
  | ⟨2, _⟩ => show q.val = win0_7.index t (2 : Fin 3) * 16 + 1 * q.val; omega

/-- WHAT POINT t WRITES BACK is block t of the specification of the argument arrays. -/
theorem flushed7_eq (c : Dev nD) (t : Fin cfg0.N) :
    (dats m 0 c).flushed 7 t = ((cfg0.win 7).blk t).view.read (Elt Ideal)
      (pooled (V m c main_arg0) (V m c main_arg1) (V m c main_arg2) (V m c main_arg3) (V m c main_arg4)
        (V m c main_arg5) (V m c main_arg6)) := by
  rw [Cert.KernelIdeal.Value.flushed7_A]
  funext j
  exact stored_at m c t j

/-! ## The blocks tile the result array -/

/-- An index of the array is in point t's block iff each coordinate is in the block's range on its axis. -/
theorem mem_blk7 (t : Fin cfg0.N) (i : S2x256x16.Idx) :
    i ∈ ((cfg0.win 7).blk t).view.set ↔ ∀ a : Fin 3, win0_7.index t a * S1x8x16.size a ≤ (i a).val
      ∧ (i a).val < win0_7.index t a * S1x8x16.size a + S1x8x16.size a := by
  show i ∈ ((View.whole main_v0).slice (win0_7.rect t)).set ↔ _
  rw [View.set_slice_whole, Rect.mem_set_unit]
  exact Iff.rfl

/-- Every index of the result array lies in the block of the point whose block index is (i₀, i₁ / 8, 0). -/
theorem cover7 (i : S2x256x16.Idx) :
    ∃ t : Fin cfg0.N, (cfg0.win 7).flush t = true ∧ i ∈ ((cfg0.win 7).blk t).view.set := by
  have hi0 : (i 0).val < 2 := (i 0).isLt
  have hi1 : (i 1).val < 256 := (i 1).isLt
  have hi2 : (i 2).val < 16 := (i 2).isLt
  obtain ⟨t, ht⟩ := idx_onto ⟨(i 0).val, hi0⟩ ⟨(i 1).val / 8, by omega⟩
  have q0 : win0_7.index t (0 : Fin 3) = (i 0).val := congrFun ht 0
  have q1 : win0_7.index t (1 : Fin 3) = (i 1).val / 8 := congrFun ht 1
  have q2 : win0_7.index t (2 : Fin 3) = 0 := congrFun ht 2
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 8 ≤ (i 1).val ∧ (i 1).val < win0_7.index t (1 : Fin 3) * 8 + 8
    omega
  | ⟨2, _⟩ =>
    show win0_7.index t (2 : Fin 3) * 16 ≤ (i 2).val ∧ (i 2).val < win0_7.index t (2 : Fin 3) * 16 + 16
    omega

/-! ## The array after the run, and the run read -/

/-- THE RESULT ARRAY after the run is the specification of the argument arrays. -/
theorem final (c : Dev nD) :
    (dats m 0 c).arrAt 7 cfg0.N
      = pooled (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) :=
  (dats m 0 c).arrAt_eq_of_cover 7
    (pooled (V m c main_arg0) (V m c main_arg1) (V m c main_arg2) (V m c main_arg3) (V m c main_arg4)
      (V m c main_arg5) (V m c main_arg6))
    (fun t _ => flushed7_eq m c t) cover7

/-- The kernel's run: the result array holds the specification, the seven arguments are unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.PairPool.KernelArray

end
-- ==== Proof.lean ====
/-
  The claim of this certificate, assembled.

  The kernel computes, for every batch b and point n of x, a pooled feature of the 128 · 128 pairs of points of x1 and
  x2: each pair (j, k) gives the vector [x_n, x1_j − x_n, x2_k − x_n], two affine layers with a relu after each give it
  16 channels, and the result holds the maximum over the pairs in channels 0–7 and their mean in channels 8–15. The
  kernel works on 8 points of x per grid step and streams over x1 in 16 chunks of 8 rows, carrying a running maximum
  and a running sum; the reference builds the whole [2, 256, 128, 128, 16] tensor and reduces it over its two pair axes.

  At the ideal instance both are the same function of the argument arrays (Proof/Spec.lean, `pooled`): a supremum does
  not depend on how its terms are grouped, addition in the extended reals is commutative and associative, and the
  kernel's factor 2⁻¹⁴ is exactly the reference's division by 16384. No finiteness of the inputs is used.
  The reference's result is that function by Proof/RefIsSpec.lean; the kernel's by Proof/ChunkValue.lean (one chunk's
  tensor at an index), Proof/KernelLoop.lean (the loop as a recursion), Proof/Pool.lean (pooling chunk by chunk),
  Proof/KernelBlock.lean (the stored block) and Proof/KernelArray.lean (the blocks tile the result array).
  The ideal pass rewrote nothing, so the idealized kernel is the kernel's own text and `preserves` is trivial; the three
  frames are the generated ones, the reference's being its run with the result dropped.
-/
import proofs.«171986_j43078521979326_2_alg».proof.Defs
import proofs.«171986_j43078521979326_2_alg».proof.Proof.Gen.Kernel
import proofs.«171986_j43078521979326_2_alg».proof.Proof.Gen.Kernel.Skeleton
import proofs.«171986_j43078521979326_2_alg».proof.Proof.Gen.Kernel.Loops
import proofs.«171986_j43078521979326_2_alg».proof.Proof.Gen.Kernel.Launch
import proofs.«171986_j43078521979326_2_alg».proof.Proof.Gen.Kernel.Points
import proofs.«171986_j43078521979326_2_alg».proof.Proof.Gen.Kernel.Frame
import proofs.«171986_j43078521979326_2_alg».proof.Proof.Gen.KernelIdeal
import proofs.«171986_j43078521979326_2_alg».proof.Proof.Gen.KernelIdeal.Skeleton
import proofs.«171986_j43078521979326_2_alg».proof.Proof.Gen.KernelIdeal.Loops
import proofs.«171986_j43078521979326_2_alg».proof.Proof.Gen.KernelIdeal.Launch
import proofs.«171986_j43078521979326_2_alg».proof.Proof.Gen.KernelIdeal.Points
import proofs.«171986_j43078521979326_2_alg».proof.Proof.Gen.KernelIdeal.Frame
import proofs.«171986_j43078521979326_2_alg».proof.Proof.Gen.KernelIdeal.Value
import proofs.«171986_j43078521979326_2_alg».proof.Proof.Gen.ReferenceIdeal
import proofs.«171986_j43078521979326_2_alg».proof.Proof.Gen.Pre_finite_inputs
import proofs.«171986_j43078521979326_2_alg».proof.Proof.RefRunP
import proofs.«171986_j43078521979326_2_alg».proof.Proof.RefReadP
import proofs.«171986_j43078521979326_2_alg».proof.Proof.RefIsSpec
import proofs.«171986_j43078521979326_2_alg».proof.Proof.KernelArray
import Idealize.ShloMosaic.Adequacy
import Idealize.ShloMosaic.Init

noncomputable section

namespace Cert.Proof

open Idealize.ShloMosaic Idealize.ShloMosaic.TcCoe Idealize.SL.Sem

/-- The reference run's named result is the last of its stages, as a function of the argument arrays. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v39 (F := Ideal) m c
      = Cert.ReferenceIdeal.ReadP.val_main_v39 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.ValueP.res_main_v39; rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs end with the pooled features of the arguments. -/
theorem algebraic : Cert.algebraic_KernelIdeal_ReferenceIdeal := by
  intro m ρ m' ρ' _ hagree
  refine ⟨_, Cert.PairPool.KernelArray.run m ρ, ?_⟩
  refine (θ_run Cert.ReferenceIdeal.defs _ _).mono (fun _ h c => ⟨(h c).1.trans ?_, (h c).2⟩)
    (Cert.ReferenceIdeal.ValueP.run (F := Ideal) m' ρ')
  rw [ref_result, Cert.PairPool.Ref.ref_eq_pooled, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
